-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x128 : Shape := ⟨3, ![64, 16384, 128]⟩
abbrev S64x8x128 : Shape := ⟨3, ![64, 8, 128]⟩
abbrev S64x8 : Shape := ⟨2, ![64, 8]⟩
abbrev S_ : Shape := ⟨0, ![]⟩

class Facts : Prop where
  bcast_S_S64x16384x128 : S_.BroadcastsInDim S64x16384x128 (![] : Fin 0 → Fin S64x16384x128.rank)
  reducesTo_S64x16384x128_S_d0_1_2 : S64x16384x128.ReducesTo [0, 1, 2] S_
  h_S_ : 0 < S_.numel
  bcast_S_S64x8x128 : S_.BroadcastsInDim S64x8x128 (![] : Fin 0 → Fin S64x8x128.rank)
  reducesTo_S64x8x128_S_d0_1_2 : S64x8x128.ReducesTo [0, 1, 2] S_
  bcast_S_S64x8 : S_.BroadcastsInDim S64x8 (![] : Fin 0 → Fin S64x8.rank)
  reducesTo_S64x8_S_d0_1 : S64x8.ReducesTo [0, 1] S_

variable [Facts]

def fn {F : FTy → Type} [FloatOps F] (main_arg0 : FVec F S64x16384x128 .f32) (main_arg1 : FVec F S64x8x128 .f32) (main_arg2 : FVec F S64x8 .f32) : IVec S_ 1 :=
  let main_v0 : FVec F S64x16384x128 .f32 := Host.absf main_arg0
  let main_cst : FVec F S_ .f32 := constant S_ .f32 0x7F800000#32
  let main_v1 : FVec F S64x16384x128 .f32 := broadcastInDim S64x16384x128 ![] bcast_S_S64x16384x128 main_cst
  let main_v2 : IVec S64x16384x128 1 := cmpf .olt main_v0 main_v1
  let main_c : IVec S_ 1 := constantI S_ 1 1#1
  let main_v3 : IVec S_ 1 := (fun x v => Host.reduce IntOp.andi x v reducesTo_S64x16384x128_S_d0_1_2 h_S_) main_v2 main_c
  let main_v4 : FVec F S64x8x128 .f32 := Host.absf main_arg1
  let main_cst_0 : FVec F S_ .f32 := constant S_ .f32 0x7F800000#32
  let main_v5 : FVec F S64x8x128 .f32 := broadcastInDim S64x8x128 ![] bcast_S_S64x8x128 main_cst_0
  let main_v6 : IVec S64x8x128 1 := cmpf .olt main_v4 main_v5
  let main_c_1 : IVec S_ 1 := constantI S_ 1 1#1
  let main_v7 : IVec S_ 1 := (fun x v => Host.reduce IntOp.andi x v reducesTo_S64x8x128_S_d0_1_2 h_S_) main_v6 main_c_1
  let main_v8 : IVec S_ 1 := andi main_v3 main_v7
  let main_v9 : FVec F S64x8 .f32 := Host.absf main_arg2
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  main_v13
-- ==== Kernel.lean ====
abbrev S64x16384x128 : Shape := ⟨3, ![64, 16384, 128]⟩
abbrev S64x8x128 : Shape := ⟨3, ![64, 8, 128]⟩
abbrev S64x8 : Shape := ⟨2, ![64, 8]⟩
abbrev S64x8x1 : Shape := ⟨3, ![64, 8, 1]⟩
abbrev S64x8x16384 : Shape := ⟨3, ![64, 8, 16384]⟩
abbrev S1x4096x128 : Shape := ⟨3, ![1, 4096, 128]⟩
abbrev S1x8x128 : Shape := ⟨3, ![1, 8, 128]⟩
abbrev S1x8x1 : Shape := ⟨3, ![1, 8, 1]⟩
abbrev S1x8x16384 : Shape := ⟨3, ![1, 8, 16384]⟩
abbrev S8x16384 : Shape := ⟨2, ![8, 16384]⟩
abbrev S1x16384 : Shape := ⟨2, ![1, 16384]⟩
abbrev S4096x128 : Shape := ⟨2, ![4096, 128]⟩
abbrev S8x128 : Shape := ⟨2, ![8, 128]⟩
abbrev S8x1 : Shape := ⟨2, ![8, 1]⟩
abbrev S8x4096 : Shape := ⟨2, ![8, 4096]⟩
abbrev S1x128 : Shape := ⟨2, ![1, 128]⟩
abbrev S1x4096 : Shape := ⟨2, ![1, 4096]⟩
abbrev S8 : Shape := ⟨1, ![8]⟩

abbrev nBuf : Space → Nat
  | .hbm => 5
  | .vmem => 10
  | .smem => 0
  | _ => 0

abbrev bufTy : (tb : Table) → Fin (tcTables nBuf tb) → BufTy
  | .hbm, ⟨0, _⟩ => ⟨S64x16384x128, .f32⟩
  | .hbm, ⟨1, _⟩ => ⟨S64x8x128, .f32⟩
  | .hbm, ⟨2, _⟩ => ⟨S64x8, .f32⟩
  | .hbm, ⟨3, _⟩ => ⟨S64x8x1, .f32⟩
  | .hbm, ⟨4, _⟩ => ⟨S64x8x16384, .f32⟩
  | .local _ .vmem, ⟨0, _⟩ => ⟨S1x4096x128, .f32⟩
  | .local _ .vmem, ⟨1, _⟩ => ⟨S1x4096x128, .f32⟩
  | .local _ .vmem, ⟨2, _⟩ => ⟨S1x8x128, .f32⟩
  | .local _ .vmem, ⟨3, _⟩ => ⟨S1x8x128, .f32⟩
  | .local _ .vmem, ⟨4, _⟩ => ⟨S1x8x1, .f32⟩
  | .local _ .vmem, ⟨5, _⟩ => ⟨S1x8x1, .f32⟩
  | .local _ .vmem, ⟨6, _⟩ => ⟨S1x8x16384, .f32⟩
  | .local _ .vmem, ⟨7, _⟩ => ⟨S1x8x16384, .f32⟩
  | .local _ .vmem, ⟨8, _⟩ => ⟨S8x16384, .f32⟩
  | .local _ .vmem, ⟨9, _⟩ => ⟨S1x16384, .f32⟩
  | _, _ => ⟨S64x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def k0_mult1 (i : grid0.Coords) : BitVec 32 :=
  let arg1 : BitVec 32 := BitVec.ofNat 32 (i 1).val
  let c4096_i32 : BitVec 32 := 4096#32
  let v12 : BitVec 32 := Scalar.muli arg1 c4096_i32
  v12
def k0_off1 (i : grid0.Coords) : Fin 2 → Nat :=
  let c0_10 : Index := 0#32
  let arg1 : BitVec 32 := BitVec.ofNat 32 (i 1).val
  let c4096_i32 : BitVec 32 := 4096#32
  let v12 : BitVec 32 := Scalar.muli arg1 c4096_i32
  let v13 : BitVec 32 := v12
  let v14 : Index := Scalar.indexCast v13
  ![0, v14.toNat]
def k0_off2 (i : grid0.Coords) : Fin 2 → Nat :=
  let c0_11 : Index := 0#32
  let arg1 : BitVec 32 := BitVec.ofNat 32 (i 1).val
  let c4096_i32 : BitVec 32 := 4096#32
  let v12 : BitVec 32 := Scalar.muli arg1 c4096_i32
  let v13 : BitVec 32 := v12
  let v18 : Index := Scalar.indexCast v13
  ![0, v18.toNat]
def k0_cond1 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32 : BitVec 32 := 0#32
  let v24 : BitVec 1 := Scalar.cmpi .ne v23 c0_i32
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S64x8_S64x8x1_0_1 : S64x8.BroadcastsInDim S64x8x1 (![0, 1] : Fin 2 → Fin S64x8x1.rank)
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  bitsLt_bf16_f32 : FTy.bits .bf16 < FTy.bits .f32
  h_S8x4096 : 0 < S8x4096.numel
  shapeCasts_S8x4096_S8x4096 : S8x4096.ShapeCasts S8x4096
  h_S1x4096 : 0 < S1x4096.numel
  shapeCasts_S1x4096_S1x4096 : S1x4096.ShapeCasts S1x4096
  inb_S1x16384_S1x16384_0_0 : ∀ a, (![0, 0] : Fin 2 → Nat) a + S1x16384.size a ≤ S1x16384.size a
  h_S1x16384 : 0 < S1x16384.numel
  reduces_S8x128_S8 : S8x128.Reduces [1] S8
  shapeCasts_S8_S8x1 : S8.ShapeCasts S8x1
  broadcasts_S1x16384_S8x16384 : S1x16384.Broadcasts S8x16384
  broadcasts_S8x1_S8x16384 : S8x1.Broadcasts S8x16384
  inb_S8x16384_S8x16384_0_0 : ∀ a, (![0, 0] : Fin 2 → Nat) a + S8x16384.size a ≤ S8x16384.size a
  h_S8x16384 : 0 < S8x16384.numel
  reduces_S8x16384_S8 : S8x16384.Reduces [1] S8
  inb_S1x8x16384_S1x8x16384_0_0_0 : ∀ a, (![0, 0, 0] : Fin 3 → Nat) a + S1x8x16384.size a ≤ S1x8x16384.size a
  h_S1x8x16384 : 0 < S1x8x16384.numel
  shapeCasts_S1x8x16384_S8x16384 : S1x8x16384.ShapeCasts S8x16384
  shapeCasts_S8x16384_S1x8x16384 : S8x16384.ShapeCasts S1x8x16384
  dot_S8x128_S4096x128_S8x4096_1_1_0_0_n_n_wf : DotDims.WF S8x128 S4096x128 S8x4096 [1] [1] [0] [0] [] []
  dot_S1x128_S4096x128_S1x4096_1_1_0_0_n_n_wf : DotDims.WF S1x128 S4096x128 S1x4096 [1] [1] [0] [0] [] []
  hrank0 : 0 < grid0.rank
  k0_mult1_dvd : ∀ i : grid0.Coords, 128 ∣ (k0_mult1 i).toNat
  k0_off1_inb : ∀ i : grid0.Coords, ∀ a, (k0_off1 i) a + S8x4096.size a ≤ S8x16384.size a
  k0_off2_inb : ∀ i : grid0.Coords, ∀ a, (k0_off2 i) a + S1x4096.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x16384x128.size a
  hwx0_0 : ∀ i : grid0.Coords, EltTy.bits .f32 = 32 ∨ (Rect.block (s := S64x16384x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S64x8x128.size a
  hwx0_1 : ∀ i : grid0.Coords, EltTy.bits .f32 = 32 ∨ (Rect.block (s := S64x8x128) S1x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1.size a ≤ S64x8x1.size a
  hwx0_2 : ∀ i : grid0.Coords, EltTy.bits .f32 = 32 ∨ (Rect.block (s := S64x8x1) S1x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x16384.size a ≤ S64x8x16384.size a
  hwx0_3 : ∀ i : grid0.Coords, EltTy.bits .f32 = 32 ∨ (Rect.block (s := S64x8x16384) S1x8x16384.size (cc0_transform_3 i) (hinb0_3 i)).WholeWords (EltTy.packing .f32)

variable [Facts₀]

def dot_S8x128_S4096x128_S8x4096_1_1_0_0_n_n : DotDims S8x128 S4096x128 S8x4096 where
  lhsContracting := [1]
  rhsContracting := [1]
  lhsNonContracting := [0]
  rhsNonContracting := [0]
  lhsBatch := []
  rhsBatch := []
  wf := dot_S8x128_S4096x128_S8x4096_1_1_0_0_n_n_wf
def dot_S1x128_S4096x128_S1x4096_1_1_0_0_n_n : DotDims S1x128 S4096x128 S1x4096 where
  lhsContracting := [1]
  rhsContracting := [1]
  lhsNonContracting := [0]
  rhsNonContracting := [0]
  lhsBatch := []
  rhsBatch := []
  wf := dot_S1x128_S4096x128_S1x4096_1_1_0_0_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) | ⟨_ + 4, h⟩ => absurd h (Nat.not_lt.2 (Nat.le_add_left _ _))

class Facts : Prop extends Facts₀ where

variable [Facts]
-- ==== ReferenceIdeal.lean ====
abbrev S64x16384x128 : Shape := ⟨3, ![64, 16384, 128]⟩
abbrev S64x8x128 : Shape := ⟨3, ![64, 8, 128]⟩
abbrev S64x8 : Shape := ⟨2, ![64, 8]⟩
abbrev S64x8x16384 : Shape := ⟨3, ![64, 8, 16384]⟩
abbrev S_ : Shape := ⟨0, ![]⟩
abbrev S64x16384 : Shape := ⟨2, ![64, 16384]⟩
abbrev S64x1x16384 : Shape := ⟨3, ![64, 1, 16384]⟩
abbrev S64x8x1 : Shape := ⟨3, ![64, 8, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x16384x128, .f32⟩
  | .hbm, ⟨1, _⟩ => ⟨S64x8x128, .f32⟩
  | .hbm, ⟨2, _⟩ => ⟨S64x8, .f32⟩
  | .hbm, ⟨3, _⟩ => ⟨S64x8x16384, .f32⟩
  | .hbm, ⟨4, _⟩ => ⟨S64x16384x128, .f32⟩
  | .hbm, ⟨5, _⟩ => ⟨S_, .f32⟩
  | .hbm, ⟨6, _⟩ => ⟨S64x16384, .f32⟩
  | .hbm, ⟨7, _⟩ => ⟨S64x16384, .f32⟩
  | .hbm, ⟨8, _⟩ => ⟨S64x8x128, .f32⟩
  | .hbm, ⟨9, _⟩ => ⟨S_, .f32⟩
  | .hbm, ⟨10, _⟩ => ⟨S64x8, .f32⟩
  | .hbm, ⟨11, _⟩ => ⟨S64x8, .f32⟩
  | .hbm, ⟨12, _⟩ => ⟨S64x1x16384, .f32⟩
  | .hbm, ⟨13, _⟩ => ⟨S64x8x1, .f32⟩
  | .hbm, ⟨14, _⟩ => ⟨S64x8x16384, .f32⟩
  | .hbm, ⟨15, _⟩ => ⟨S64x8x16384, .f32⟩
  | .hbm, ⟨16, _⟩ => ⟨S64x8x16384, .f32⟩
  | .hbm, ⟨17, _⟩ => ⟨S_, .f32⟩
  | .hbm, ⟨18, _⟩ => ⟨S64x8x16384, .f32⟩
  | .hbm, ⟨19, _⟩ => ⟨S64x8x16384, .f32⟩
  | .hbm, ⟨20, _⟩ => ⟨S64x8x16384, .f32⟩
  | .hbm, ⟨21, _⟩ => ⟨S_, .f32⟩
  | .hbm, ⟨22, _⟩ => ⟨S64x8, .f32⟩
  | .hbm, ⟨23, _⟩ => ⟨S64x8, .f32⟩
  | .hbm, ⟨24, _⟩ => ⟨S64x8, .f32⟩
  | .hbm, ⟨25, _⟩ => ⟨S64x8, .f32⟩
  | .hbm, ⟨26, _⟩ => ⟨S64x8, .i1⟩
  | .hbm, ⟨27, _⟩ => ⟨S64x8, .f32⟩
  | .hbm, ⟨28, _⟩ => ⟨S64x8, .f32⟩
  | .hbm, ⟨29, _⟩ => ⟨S64x8, .f32⟩
  | .hbm, ⟨30, _⟩ => ⟨S64x8, .f32⟩
  | .hbm, ⟨31, _⟩ => ⟨S64x8, .f32⟩
  | .hbm, ⟨32, _⟩ => ⟨S64x8, .f32⟩
  | .hbm, ⟨33, _⟩ => ⟨S64x8, .f32⟩
  | .hbm, ⟨34, _⟩ => ⟨S64x8, .f32⟩
  | .hbm, ⟨35, _⟩ => ⟨S64x8x1, .f32⟩
  | .hbm, ⟨36, _⟩ => ⟨S64x8x16384, .f32⟩
  | .hbm, ⟨37, _⟩ => ⟨S64x8x16384, .f32⟩
  | .hbm, ⟨38, _⟩ => ⟨S_, .f32⟩
  | .hbm, ⟨39, _⟩ => ⟨S64x8, .f32⟩
  | .hbm, ⟨40, _⟩ => ⟨S_, .f32⟩
  | .hbm, ⟨41, _⟩ => ⟨S64x8, .f32⟩
  | .hbm, ⟨42, _⟩ => ⟨S64x8, .f32⟩
  | .hbm, ⟨43, _⟩ => ⟨S64x8x1, .f32⟩
  | .hbm, ⟨44, _⟩ => ⟨S64x8x16384, .f32⟩
  | .hbm, ⟨45, _⟩ => ⟨S64x8x16384, .f32⟩
  | .hbm, ⟨46, _⟩ => ⟨S64x8x16384, .f32⟩
  | .hbm, ⟨47, _⟩ => ⟨S_, .f32⟩
  | .hbm, ⟨48, _⟩ => ⟨S64x8, .f32⟩
  | .hbm, ⟨49, _⟩ => ⟨S64x8x1, .f32⟩
  | .hbm, ⟨50, _⟩ => ⟨S64x8x16384, .f32⟩
  | .hbm, ⟨51, _⟩ => ⟨S64x8x16384, .f32⟩
  | _, _ => ⟨S64x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call2_cst : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩

abbrev nD : Nat := 1
abbrev τ : Topo := Topo.v7x

variable {F : FTy → Type} [FloatOps F]

class Facts₀ : Prop where
  reducesTo_S64x16384x128_S64x16384_d2 : S64x16384x128.ReducesTo [2] S64x16384
  h_S_ : 0 < S_.numel
  reducesTo_S64x8x128_S64x8_d2 : S64x8x128.ReducesTo [2] S64x8
  bcast_S64x16384_S64x1x16384_0_2 : S64x16384.BroadcastsInDim S64x1x16384 (![0, 2] : Fin 2 → Fin S64x1x16384.rank)
  bcast_S64x8_S64x8x1_0_1 : S64x8.BroadcastsInDim S64x8x1 (![0, 1] : Fin 2 → Fin S64x8x1.rank)
  bcast_S64x1x16384_S64x8x16384_0_1_2 : S64x1x16384.BroadcastsInDim S64x8x16384 (![0, 1, 2] : Fin 3 → Fin S64x8x16384.rank)
  bcast_S64x8x1_S64x8x16384_0_1_2 : S64x8x1.BroadcastsInDim S64x8x16384 (![0, 1, 2] : Fin 3 → Fin S64x8x16384.rank)
  bcast_S_S64x8x16384 : S_.BroadcastsInDim S64x8x16384 (![] : Fin 0 → Fin S64x8x16384.rank)
  bcast_S_S64x8 : S_.BroadcastsInDim S64x8 (![] : Fin 0 → Fin S64x8.rank)
  reducesTo_S64x8x16384_S64x8_d2 : S64x8x16384.ReducesTo [2] S64x8
  dot_S64x8x128_S64x16384x128_S64x8x16384_2_2_1_1_0_0_wf : DotDims.WF S64x8x128 S64x16384x128 S64x8x16384 [2] [2] [1] [1] [0] [0]

variable [Facts₀]

def dot_S64x8x128_S64x16384x128_S64x8x16384_2_2_1_1_0_0 : DotDims S64x8x128 S64x16384x128 S64x8x16384 where
  lhsContracting := [2]
  rhsContracting := [2]
  lhsNonContracting := [1]
  rhsNonContracting := [1]
  lhsBatch := [0]
  rhsBatch := [0]
  wf := dot_S64x8x128_S64x16384x128_S64x8x16384_2_2_1_1_0_0_wf

class Facts : Prop extends Facts₀ where

variable [Facts]
-- ==== Proof.BitsGrid.lean ====
/-
  The grid of the kernel and the buffers its body works on.

  The grid is 64 batches of 4 tiles of 4096 memory rows: point t is tile t mod 4 of batch t / 4. At every
  point the body stores an 8 x 4096 tile of scores, and a 1 x 4096 tile of squared row norms, into columns
  [4096 (t mod 4), 4096 (t mod 4 + 1)) of its two scratch buffers; only at a batch's last tile does it store
  the batch's block of the output.
-/
import proofs.«154168_j18262200942963_2_alg».proof.Proof.Gen.Kernel.Frame
import proofs.«154168_j18262200942963_2_alg».proof.Proof.Gen.Kernel.Skeleton
import Idealize.ShloMosaic.Lib.Pipeline.Value
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The grid: 64 batches of 4 tiles -/

/-- The body's one condition: the tile is the batch's last. -/
abbrev lastTile (i : grid0.Coords) : Prop := k0_cond1 i = 1#1

/-- Point t is tile t mod 4 of batch t / 4; the condition holds at the tiles numbered 3. -/
theorem lastTile_iff : ∀ t : Fin cfg0.N, lastTile (grid0.coords t) ↔ t.val % 4 = 3 :=
  (by decide +kernel : ∀ t : Fin grid0.N, lastTile (grid0.coords t) ↔ t.val % 4 = 3)

/-- The three inputs are stored into at no point, so never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output block is stored only at a batch's last tile: idle, and not written back, at the others. -/
theorem idle3 : ∀ t : Fin cfg0.N, ¬lastTile (grid0.coords t) → cfg0.idle 3 (grid0.coords t) = true := by decide +kernel
theorem noFlush3 : ∀ t : Fin cfg0.N, ¬lastTile (grid0.coords t) → (cfg0.win 3).flush t = false := by decide +kernel
theorem live3 : ∀ t : Fin cfg0.N, lastTile (grid0.coords t) → cfg0.idle 3 (grid0.coords t) = false := by decide +kernel

/-- The tile's columns start at 4096 (t mod 4), in both scratch buffers. -/
theorem off1_eq : ∀ t : Fin cfg0.N, k0_off1 (grid0.coords t) = ![0, 4096 * (t.val % 4)] :=
  (by decide +kernel : ∀ t : Fin grid0.N, k0_off1 (grid0.coords t) = ![0, 4096 * (t.val % 4)])
theorem off2_eq : ∀ t : Fin cfg0.N, k0_off2 (grid0.coords t) = ![0, 4096 * (t.val % 4)] :=
  (by decide +kernel : ∀ t : Fin grid0.N, k0_off2 (grid0.coords t) = ![0, 4096 * (t.val % 4)])

/-! ## The buffers the body is called with -/

abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x16384 .f32 := win0_3.stage (cfg0.slots t 3)
abbrev hs3 (t : Fin cfg0.N) : (ms3 t).IsWhole := hstage0_3 ((cfg0.slots t 3).cast nbuf0_3)
/-- The score scratch (8 x 16384) and the squared-norm scratch (1 x 16384). -/
abbrev scS : Memref sig .tc .vmem S8x16384 .f32 := Memref.whole cc0_scratch0
abbrev scN : Memref sig .tc .vmem S1x16384 .f32 := Memref.whole cc0_scratch1

/-- What the region lends the body besides the windows: the two scratch buffers at some contents, and the
    generator register. -/
theorem PhiA_eq (c : Dev nD) :
    (Pipeline.ΦA spec0 c : sProp 𝕄)
      = iprop(iprop((∃ d, owns (c : Thread nD τ) scS fullShare d) ∗ (∃ d, owns (c : Thread nD τ) scN fullShare d)) ∗ (∃ r, prngReg c r)) := by
  unfold Pipeline.ΦA; rw [scopedRest0_eq]; simp only [scS, scN, owns_whole]; try rfl

/-! ## The two stores every point makes -/

/-- The score tile, stored at the tile's columns of the score scratch. -/
abbrev scorePiece (i : grid0.Coords) (x0 : Vec F S1x4096x128 .f32) (x1 : Vec F S1x8x128 .f32) : View.Piece (Elt F) S8x16384 .f32 :=
  ⟨Rect.unit (s := S8x16384) (k0_off1 i) S8x4096.size (k0_off1_inb i), k0_pay3 x0 x1⟩
/-- The squared-norm tile, stored at the tile's columns of the norm scratch. -/
abbrev normPiece (i : grid0.Coords) (x0 : Vec F S1x4096x128 .f32) : View.Piece (Elt F) S1x16384 .f32 :=
  ⟨Rect.unit (s := S1x16384) (k0_off2 i) S1x4096.size (k0_off2_inb i), k0_pay4 x0⟩

/-- What the whole score scratch reads as once the tile is written over contents s0. -/
abbrev scoresNow (i : grid0.Coords) (arg6 : Memref sig .tc .vmem S8x16384 .f32) (harg6 : arg6.IsWhole) (x0 : Vec F S1x4096x128 .f32) (x1 : Vec F S1x8x128 .f32) (s0 : Vec F S8x16384 .f32) : Vec F S8x16384 .f32 :=
  arg6.view.read (Elt F) (arg6.view.writes (Elt F) (harg6.unread s0) [scorePiece i x0 x1])
/-- What the whole norm scratch reads as once the tile is written over contents s1. -/
abbrev normsNow (i : grid0.Coords) (arg7 : Memref sig .tc .vmem S1x16384 .f32) (harg7 : arg7.IsWhole) (x0 : Vec F S1x4096x128 .f32) (s1 : Vec F S1x16384 .f32) : Vec F S1x16384 .f32 :=
  arg7.view.read (Elt F) (arg7.view.writes (Elt F) (harg7.unread s1) [normPiece i x0])

end Cert.Kernel.Body

end
-- ==== Proof.BitsRunTile.lean ====
/-
  The kernel body at a tile that is not its batch's last: the inputs and the output's buffer are handed
  back as found, each scratch buffer with the tile written over what it held.
-/
import proofs.«154168_j18262200942963_2_alg».proof.Proof.BitsGrid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 400000 in
/-- Not the batch's last tile: the inputs and the output's buffer are handed back as found, each scratch with
    the tile written over what it held. -/
theorem run_tile (c : Dev nD) (i : grid0.Coords) (arg2 : Memref sig .tc .vmem S1x4096x128 .f32) (harg2 : arg2.IsWhole) (arg3 : Memref sig .tc .vmem S1x8x128 .f32) (harg3 : arg3.IsWhole) (arg4 : Memref sig .tc .vmem S1x8x1 .f32) (harg4 : arg4.IsWhole) (arg5 : Memref sig .tc .vmem S1x8x16384 .f32) (harg5 : arg5.IsWhole) (arg6 : Memref sig .tc .vmem S8x16384 .f32) (harg6 : arg6.IsWhole) (arg7 : Memref sig .tc .vmem S1x16384 .f32) (harg7 : arg7.IsWhole) (hc0 : ¬lastTile i)
    (x0 : Vec F S1x4096x128 .f32) (x1 : Vec F S1x8x128 .f32) (x2 : Vec F S1x8x1 .f32) (xi3 : Vec F S1x8x16384 .f32) (s0 : Vec F S8x16384 .f32) (s1 : Vec F S1x16384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare s0 ∗ owns (c : Thread nD τ) arg7 fullShare s1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (arg6.view.loc (c : Thread nD τ) ↦[arg6.view.set]{fullShare} arg6.view.writes (Elt F) (harg6.unread s0) [scorePiece i x0 x1])
                ∗ (arg7.view.loc (c : Thread nD τ) ↦[arg7.view.set]{fullShare} arg7.view.writes (Elt F) (harg7.unread s1) [normPiece i x0])) -∗ K ⟨⟩))
          ⊢ wp frame (wpE (defs₀ (F := F)) Variants.none c none) E (cc0__cosine_weights_kernel i arg2 harg2 arg3 harg3 arg4 harg4 arg5 harg5 arg6 harg6 arg7 harg7) K := by
    intro E K
    simp only [cc0__cosine_weights_kernel_eq_skeleton]; unfold cc0__cosine_weights_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0)
    sl_step
    simp only [View.readAt_eq_ld, harg2.read_unread, harg3.read_unread, View.ld_unit_zero (S := S1x4096x128) hz3, View.ld_unit_zero (S := S1x8x128) hz3]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexact HS0
    iexact HS1

end Cert.Kernel.Body

end
-- ==== Proof.BitsRunLast.lean ====
/-
  The kernel body at a batch's last tile: the tile is written into both scratch buffers as at every point,
  and then the output's buffer, whatever it held, is stored whole with the softmax weights computed from the
  keys, the strengths and the two scratch buffers as they then stand.
-/
import proofs.«154168_j18262200942963_2_alg».proof.Proof.BitsGrid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 800000 in
/-- The batch's last tile: as above, and then the output's buffer, whatever it held, stored whole with the
    softmax weights computed from the keys, the strengths and the two scratch buffers as they now stand. -/
theorem run_last (c : Dev nD) (i : grid0.Coords) (arg2 : Memref sig .tc .vmem S1x4096x128 .f32) (harg2 : arg2.IsWhole) (arg3 : Memref sig .tc .vmem S1x8x128 .f32) (harg3 : arg3.IsWhole) (arg4 : Memref sig .tc .vmem S1x8x1 .f32) (harg4 : arg4.IsWhole) (arg5 : Memref sig .tc .vmem S1x8x16384 .f32) (harg5 : arg5.IsWhole) (arg6 : Memref sig .tc .vmem S8x16384 .f32) (harg6 : arg6.IsWhole) (arg7 : Memref sig .tc .vmem S1x16384 .f32) (harg7 : arg7.IsWhole) (hc0 : lastTile i)
    (x0 : Vec F S1x4096x128 .f32) (x1 : Vec F S1x8x128 .f32) (x2 : Vec F S1x8x1 .f32) (xi3 : Vec F S1x8x16384 .f32) (s0 : Vec F S8x16384 .f32) (s1 : Vec F S1x16384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare s0 ∗ owns (c : Thread nD τ) arg7 fullShare s1
            ∗ (iprop(owns (c : Thread nD τ) arg2 fullShare x0 ∗ owns (c : Thread nD τ) arg3 fullShare x1 ∗ owns (c : Thread nD τ) arg4 fullShare x2
                ∗ owns (c : Thread nD τ) arg5 fullShare (k0_pay5 x1 x2 (normsNow i arg7 harg7 x0 s1) (scoresNow i arg6 harg6 x0 x1 s0))
                ∗ (arg6.view.loc (c : Thread nD τ) ↦[arg6.view.set]{fullShare} arg6.view.writes (Elt F) (harg6.unread s0) [scorePiece i x0 x1])
                ∗ (arg7.view.loc (c : Thread nD τ) ↦[arg7.view.set]{fullShare} arg7.view.writes (Elt F) (harg7.unread s1) [normPiece i x0])) -∗ K ⟨⟩))
          ⊢ wp frame (wpE (defs₀ (F := F)) Variants.none c none) E (cc0__cosine_weights_kernel i arg2 harg2 arg3 harg3 arg4 harg4 arg5 harg5 arg6 harg6 arg7 harg7) K := by
    intro E K
    simp only [cc0__cosine_weights_kernel_eq_skeleton]; unfold cc0__cosine_weights_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0)
    sl_step
    sl_unfold_words
    simp only [View.readAt_eq_ld, harg2.read_unread, harg3.read_unread, harg4.read_unread, View.ld_unit_zero (S := S1x4096x128) hz3, View.ld_unit_zero (S := S1x8x128) hz3, View.ld_unit_zero (S := S1x8x1) hz3, View.ld_unit_zero (S := S8x16384) hz2, View.ld_unit_zero (S := S1x16384) hz2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact (View.read_writes_eq_canon _ _ _ (fun y => ⟨_, List.mem_singleton_self _, View.mem_set_unit_zero hz3 inb_S1x8x16384_S1x8x16384_0_0_0 y⟩)).trans (View.canon_unit_zero hz3 inb_S1x8x16384_S1x8x16384_0_0_0 _)
    isplitl [HS0]
    · iexact HS0
    iexact HS1

end Cert.Kernel.Body

end
-- ==== Proof.BitsData.lean ====
/-
  The kernel's frame run, with what its scratch buffers and its output hold named.

  Before point t (tile k = t mod 4 of batch b = t / 4) the score scratch holds, in its columns below 4096 k,
  the score tiles of the batch's tiles 0 .. k-1, and the norm scratch their squared-norm tiles; what the later
  columns hold is not said (before the very first point, nothing is). Writing tile k extends this to the columns
  below 4096 (k+1); after the last tile of a batch both scratch buffers are the batch's whole score and norm
  rows, which is what the output block is computed from, and the next batch starts again from nothing said.
-/
import proofs.«154168_j18262200942963_2_alg».proof.Proof.BitsRunTile
import proofs.«154168_j18262200942963_2_alg».proof.Proof.BitsRunLast
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N256 : cfg0.N = 256 := N_0
theorem lt256 (t : Fin cfg0.N) : t.val < 256 := lt_of_lt_of_eq t.isLt N256

/-! ## What the scratch buffers hold -/

/-- The point of t's batch whose tile holds column j. -/
def tileOf (t : Fin cfg0.N) (j : ℕ) : Fin cfg0.N :=
  ⟨4 * (t.val / 4) + j / 4096 % 4, lt_of_lt_of_eq (by have := lt256 t; omega) N256.symm⟩

theorem tileOf_congr (t t' : Fin cfg0.N) (h : t.val / 4 = t'.val / 4) (j : ℕ) : tileOf t j = tileOf t' j :=
  Fin.ext (by show 4 * (t.val / 4) + j / 4096 % 4 = 4 * (t'.val / 4) + j / 4096 % 4; rw [h])

/-- A position of a scratch buffer as a row-and-column position inside its tile. -/
abbrev inTile8 (y : S8x16384.Idx) : S8x4096.Idx :=
  ValueIdx.ix2 (⟨(y 0).val, (y 0).isLt⟩ : Fin 8) (⟨(y 1).val % 4096, Nat.mod_lt _ (by decide)⟩ : Fin 4096)
abbrev inTile1 (y : S1x16384.Idx) : S1x4096.Idx :=
  ValueIdx.ix2 (⟨(y 0).val, (y 0).isLt⟩ : Fin 1) (⟨(y 1).val % 4096, Nat.mod_lt _ (by decide)⟩ : Fin 4096)

/-- The whole score rows of t's batch: column j is taken from the score tile of the point whose tile holds j. -/
def batchScores (c : Dev nD) (t : Fin cfg0.N) : Vec F S8x16384 .f32 := fun y =>
  k0_pay3 (iblk m c 0 (tileOf t (y 1).val)) (iblk m c 1 (tileOf t (y 1).val)) (inTile8 y)

/-- The whole squared-norm row of t's batch, likewise. -/
def batchNorms (c : Dev nD) (t : Fin cfg0.N) : Vec F S1x16384 .f32 := fun y =>
  k0_pay4 (iblk m c 0 (tileOf t (y 1).val)) (inTile1 y)

theorem batchScores_congr (c : Dev nD) (t t' : Fin cfg0.N) (h : t.val / 4 = t'.val / 4) : batchScores m c t = batchScores m c t' := by
  funext y; unfold batchScores; rw [tileOf_congr t t' h (y 1).val]
theorem batchNorms_congr (c : Dev nD) (t t' : Fin cfg0.N) (h : t.val / 4 = t'.val / 4) : batchNorms m c t = batchNorms m c t' := by
  funext y; unfold batchNorms; rw [tileOf_congr t t' h (y 1).val]

/-- Writing point t's score tile over contents that already agree with the batch's rows below the tile's
    columns gives contents that agree with them below the next tile's. -/
theorem scores_step (c : Dev nD) (t : Fin cfg0.N) (arg6 : Memref sig .tc .vmem S8x16384 .f32) (harg6 : arg6.IsWhole) (s0 : Vec F S8x16384 .f32)
    (h : ∀ y : S8x16384.Idx, (y 1).val < 4096 * (t.val % 4) → s0 y = batchScores m c t y)
    (y : S8x16384.Idx) (hy : (y 1).val < 4096 * (t.val % 4 + 1)) :
    scoresNow (grid0.coords t) arg6 harg6 (iblk m c 0 t) (iblk m c 1 t) s0 y = batchScores m c t y := by
  have h1 : (y 1).val < 16384 := (y 1).isLt
  have h0 : (y 0).val < 8 := (y 0).isLt
  by_cases hlt : (y 1).val < 4096 * (t.val % 4)
  · rw [← h y hlt]
    refine (View.read_writes_cons_unit_of_not_mem _ _ (k0_off1_inb _) _ [] y (off1_eq t) 1 (Or.inl ?_)).trans ?_
    · show (y 1).val < 4096 * (t.val % 4); exact hlt
    · rw [View.writes_nil]; exact congrFun (harg6.read_unread s0) y
  · refine (View.read_writes_cons_unit_of_mem _ _ (k0_off1_inb _) _ [] y (inTile8 y) (off1_eq t) ?_).trans ?_
    · intro a
      match a with
      | ⟨0, _⟩ => show (y 0).val = 0 + (y 0).val; omega
      | ⟨1, _⟩ => show (y 1).val = 4096 * (t.val % 4) + (y 1).val % 4096; omega
    · unfold batchScores
      have e : tileOf t (y 1).val = t := Fin.ext (by show 4 * (t.val / 4) + (y 1).val / 4096 % 4 = t.val; omega)
      rw [e]

/-- The same for the squared-norm tile. -/
theorem norms_step (c : Dev nD) (t : Fin cfg0.N) (arg7 : Memref sig .tc .vmem S1x16384 .f32) (harg7 : arg7.IsWhole) (s1 : Vec F S1x16384 .f32)
    (h : ∀ y : S1x16384.Idx, (y 1).val < 4096 * (t.val % 4) → s1 y = batchNorms m c t y)
    (y : S1x16384.Idx) (hy : (y 1).val < 4096 * (t.val % 4 + 1)) :
    normsNow (grid0.coords t) arg7 harg7 (iblk m c 0 t) s1 y = batchNorms m c t y := by
  have h1 : (y 1).val < 16384 := (y 1).isLt
  have h0 : (y 0).val < 1 := (y 0).isLt
  by_cases hlt : (y 1).val < 4096 * (t.val % 4)
  · rw [← h y hlt]
    refine (View.read_writes_cons_unit_of_not_mem _ _ (k0_off2_inb _) _ [] y (off2_eq t) 1 (Or.inl ?_)).trans ?_
    · show (y 1).val < 4096 * (t.val % 4); exact hlt
    · rw [View.writes_nil]; exact congrFun (harg7.read_unread s1) y
  · refine (View.read_writes_cons_unit_of_mem _ _ (k0_off2_inb _) _ [] y (inTile1 y) (off2_eq t) ?_).trans ?_
    · intro a
      match a with
      | ⟨0, _⟩ => show (y 0).val = 0 + (y 0).val; omega
      | ⟨1, _⟩ => show (y 1).val = 4096 * (t.val % 4) + (y 1).val % 4096; omega
    · unfold batchNorms
      have e : tileOf t (y 1).val = t := Fin.ext (by show 4 * (t.val / 4) + (y 1).val / 4096 % 4 = t.val; omega)
      rw [e]

/-- Before point n: the columns below 4096 (n mod 4) of both scratch buffers are the batch's. -/
def Filled (c : Dev nD) (n : ℕ) (d0 : Vec F S8x16384 .f32) (d1 : Vec F S1x16384 .f32) : Prop :=
  ∀ t : Fin cfg0.N, t.val = n →
    (∀ y : S8x16384.Idx, (y 1).val < 4096 * (n % 4) → d0 y = batchScores m c t y)
    ∧ (∀ y : S1x16384.Idx, (y 1).val < 4096 * (n % 4) → d1 y = batchNorms m c t y)

theorem filled_zero (c : Dev nD) (n : ℕ) (hn : n % 4 = 0) (d0 : Vec F S8x16384 .f32) (d1 : Vec F S1x16384 .f32) : Filled m c n d0 d1 := by
  intro t _
  rw [hn]
  exact ⟨fun y hy => absurd hy (by omega), fun y hy => absurd hy (by omega)⟩

theorem filled_step (c : Dev nD) (t : Fin cfg0.N) (h3 : ¬t.val % 4 = 3) (d0 : Vec F S8x16384 .f32) (d1 : Vec F S1x16384 .f32)
    (hF : Filled m c t.val d0 d1) :
    Filled m c (t.val + 1) (scoresNow (grid0.coords t) scS (Memref.isWhole_whole _) (iblk m c 0 t) (iblk m c 1 t) d0)
      (normsNow (grid0.coords t) scN (Memref.isWhole_whole _) (iblk m c 0 t) d1) := by
  intro t' ht'
  have hb : t.val / 4 = t'.val / 4 := by omega
  have hm : (t.val + 1) % 4 = t.val % 4 + 1 := by omega
  obtain ⟨hS, hN⟩ := hF t rfl
  rw [hm]
  refine ⟨fun y hy => ?_, fun y hy => ?_⟩
  · rw [← batchScores_congr m c t t' hb]; exact scores_step m c t _ _ d0 hS y hy
  · rw [← batchNorms_congr m c t t' hb]; exact norms_step m c t _ _ d1 hN y hy

/-- At a batch's last tile the score scratch, once the tile is written, is the batch's whole rows. -/
theorem scores_last (c : Dev nD) (t : Fin cfg0.N) (h3 : t.val % 4 = 3) (d0 : Vec F S8x16384 .f32) (d1 : Vec F S1x16384 .f32)
    (hF : Filled m c t.val d0 d1) :
    scoresNow (grid0.coords t) scS (Memref.isWhole_whole _) (iblk m c 0 t) (iblk m c 1 t) d0 = batchScores m c t :=
  funext fun y => scores_step m c t _ _ d0 (hF t rfl).1 y (by have h1 : (y 1).val < 16384 := (y 1).isLt; omega)
theorem norms_last (c : Dev nD) (t : Fin cfg0.N) (h3 : t.val % 4 = 3) (d0 : Vec F S8x16384 .f32) (d1 : Vec F S1x16384 .f32)
    (hF : Filled m c t.val d0 d1) :
    normsNow (grid0.coords t) scN (Memref.isWhole_whole _) (iblk m c 0 t) d1 = batchNorms m c t :=
  funext fun y => norms_step m c t _ _ d1 (hF t rfl).2 y (by have h1 : (y 1).val < 16384 := (y 1).isLt; omega)

/-! ## The invariant and the proof data -/

/-- The region's invariant before point n: the scratch buffers at contents filled so far, the generator register at
    some state. -/
def PhiS (c : Dev nD) (n : ℕ) : sProp 𝕄 :=
  iprop(iprop(∃ d0 d1, ⌜Filled m c n d0 d1⌝ ∗ owns (c : Thread nD τ) scS fullShare d0 ∗ owns (c : Thread nD τ) scN fullShare d1) ∗ (∃ r, prngReg c r))

/-- The proof data: the arrays as the region finds them; after the body each input's buffer at its block, the output's
    (where it is stored: at a batch's last tile) at the softmax weights of the batch's whole score and norm rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (iblk m c 1 t) (iblk m c 2 t) (batchNorms m c t) (batchScores m c t)
  Φ u := PhiS m c u.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay5 (iblk m c 1 t) (iblk m c 2 t) (batchNorms m c t) (batchScores m c t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. The invariant hands it the scratch buffers at contents filled below the tile's columns and
    takes them back filled below the next tile's (or, after a batch's last tile, with nothing said); there the
    output's buffer is left at the softmax weights of the batch's whole rows, which the scratch buffers then are. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h3 : t.val % 4 = 3
  · rw [show (dats m 0 c).leavesExact 3 t = owns (c : Thread nD τ) (ms3 t) fullShare ((dats m 0 c).after 3 t) from by
      unfold Dat.leavesExact; rw [live3 t ((lastTile_iff t).mpr h3)], after3]
    iintro ⟨⟨⟨%d0, %d1, %hF, HS0, HS1⟩, Hg⟩, Ho, ⟨%e0, H0⟩, ⟨%e1, H1⟩, ⟨%e2, H2⟩, ⟨%e3, H3⟩⟩
    rw [← scores_last m c t h3 d0 d1 hF, ← norms_last m c t h3 d0 d1 hF]
    iapply (run_last c (grid0.coords t) _ _ _ _ _ _ _ _ _ _ _ _ ((lastTile_iff t).mpr h3) (iblk m c 0 t) (iblk m c 1 t) (iblk m c 2 t) _ d0 d1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · iexists (scoresNow (grid0.coords t) scS (Memref.isWhole_whole _) (iblk m c 0 t) (iblk m c 1 t) d0), (normsNow (grid0.coords t) scN (Memref.isWhole_whole _) (iblk m c 0 t) d1)
        isplitr
        · ipureintro; exact filled_zero m c (t.val + 1) (by omega) _ _
        isplitl [HS0]
        · unfold owns; iexists _; isplitr; swap; · iexact HS0
          ipureintro; rfl
        unfold owns; iexists _; isplitr; swap; · iexact HS1
        ipureintro; rfl
      iexact Hg
    isplitl [Ho]; · iexact Ho
    isplitl [H0]; · iexact H0
    isplitl [H1]; · iexact H1
    isplitl [H2]; · iexact H2
    iexact H3
  · rw [Dat.leavesExact_idle (dats m 0 c) 3 t (idle3 t (fun h => h3 ((lastTile_iff t).mp h))) (noFlush3 t (fun h => h3 ((lastTile_iff t).mp h)))]
    iintro ⟨⟨⟨%d0, %d1, %hF, HS0, HS1⟩, Hg⟩, Ho, ⟨%e0, H0⟩, ⟨%e1, H1⟩, ⟨%e2, H2⟩, ⟨%e3, H3⟩⟩
    iapply (run_tile c (grid0.coords t) _ _ _ _ _ _ _ _ _ _ _ _ (fun h => h3 ((lastTile_iff t).mp h)) (iblk m c 0 t) (iblk m c 1 t) (iblk m c 2 t) _ d0 d1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · iexists _, _
        isplitr
        · ipureintro; exact filled_step m c t h3 d0 d1 hF
        isplitl [HS0]
        · unfold owns; iexists _; isplitr; swap; · iexact HS0
          ipureintro; rfl
        unfold owns; iexists _; isplitr; swap; · iexact HS1
        ipureintro; rfl
      iexact Hg
    isplitl [Ho]; · iexact Ho
    isplitl [H0]; · iexact H0
    isplitl [H1]; · iexact H1
    isplitl [H2]; · iexact H2
    iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is said of the scratch yet. -/
theorem hin (c : Dev nD) : Pipeline.ΦA spec0 c ⊢ (dats m 0 c).Φ 0 := by
  rw [show (dats m 0 c).Φ 0 = PhiS m c 0 from rfl, PhiA_eq]; unfold PhiS
  iintro ⟨⟨⟨%d0, HS0⟩, ⟨%d1, HS1⟩⟩, Hg⟩
  isplitl [HS0 HS1]
  · iexists d0, d1
    isplitr
    · ipureintro; exact filled_zero m c 0 rfl d0 d1
    isplitl [HS0]; · iexact HS0
    iexact HS1
  iexact Hg

/-- After the last point the invariant gives the scratch buffers back, what they hold forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨%d0, %d1, %hF, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline at what the library computes from
    the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealGrid.lean ====
/-
  The grid of the kernel and the buffers its body works on.

  The grid is 64 batches of 4 tiles of 4096 memory rows: point t is tile t mod 4 of batch t / 4. At every
  point the body stores an 8 x 4096 tile of scores, and a 1 x 4096 tile of squared row norms, into columns
  [4096 (t mod 4), 4096 (t mod 4 + 1)) of its two scratch buffers; only at a batch's last tile does it store
  the batch's block of the output.
-/
import proofs.«154168_j18262200942963_2_alg».proof.Proof.Gen.KernelIdeal.Frame
import proofs.«154168_j18262200942963_2_alg».proof.Proof.Gen.KernelIdeal.Skeleton
import Idealize.ShloMosaic.Lib.Pipeline.Value
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The grid: 64 batches of 4 tiles -/

/-- The body's one condition: the tile is the batch's last. -/
abbrev lastTile (i : grid0.Coords) : Prop := k0_cond1 i = 1#1

/-- Point t is tile t mod 4 of batch t / 4; the condition holds at the tiles numbered 3. -/
theorem lastTile_iff : ∀ t : Fin cfg0.N, lastTile (grid0.coords t) ↔ t.val % 4 = 3 :=
  (by decide +kernel : ∀ t : Fin grid0.N, lastTile (grid0.coords t) ↔ t.val % 4 = 3)

/-- The three inputs are stored into at no point, so never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output block is stored only at a batch's last tile: idle, and not written back, at the others. -/
theorem idle3 : ∀ t : Fin cfg0.N, ¬lastTile (grid0.coords t) → cfg0.idle 3 (grid0.coords t) = true := by decide +kernel
theorem noFlush3 : ∀ t : Fin cfg0.N, ¬lastTile (grid0.coords t) → (cfg0.win 3).flush t = false := by decide +kernel
theorem live3 : ∀ t : Fin cfg0.N, lastTile (grid0.coords t) → cfg0.idle 3 (grid0.coords t) = false := by decide +kernel

/-- The tile's columns start at 4096 (t mod 4), in both scratch buffers. -/
theorem off1_eq : ∀ t : Fin cfg0.N, k0_off1 (grid0.coords t) = ![0, 4096 * (t.val % 4)] :=
  (by decide +kernel : ∀ t : Fin grid0.N, k0_off1 (grid0.coords t) = ![0, 4096 * (t.val % 4)])
theorem off2_eq : ∀ t : Fin cfg0.N, k0_off2 (grid0.coords t) = ![0, 4096 * (t.val % 4)] :=
  (by decide +kernel : ∀ t : Fin grid0.N, k0_off2 (grid0.coords t) = ![0, 4096 * (t.val % 4)])

/-! ## The buffers the body is called with -/

abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x16384 .f32 := win0_3.stage (cfg0.slots t 3)
abbrev hs3 (t : Fin cfg0.N) : (ms3 t).IsWhole := hstage0_3 ((cfg0.slots t 3).cast nbuf0_3)
/-- The score scratch (8 x 16384) and the squared-norm scratch (1 x 16384). -/
abbrev scS : Memref sig .tc .vmem S8x16384 .f32 := Memref.whole cc0_scratch0
abbrev scN : Memref sig .tc .vmem S1x16384 .f32 := Memref.whole cc0_scratch1

/-- What the region lends the body besides the windows: the two scratch buffers at some contents, and the
    generator register. -/
theorem PhiA_eq (c : Dev nD) :
    (Pipeline.ΦA spec0 c : sProp 𝕄)
      = iprop(iprop((∃ d, owns (c : Thread nD τ) scS fullShare d) ∗ (∃ d, owns (c : Thread nD τ) scN fullShare d)) ∗ (∃ r, prngReg c r)) := by
  unfold Pipeline.ΦA; rw [scopedRest0_eq]; simp only [scS, scN, owns_whole]; try rfl

/-! ## The two stores every point makes -/

/-- The score tile, stored at the tile's columns of the score scratch. -/
abbrev scorePiece (i : grid0.Coords) (x0 : Vec F S1x4096x128 .f32) (x1 : Vec F S1x8x128 .f32) : View.Piece (Elt F) S8x16384 .f32 :=
  ⟨Rect.unit (s := S8x16384) (k0_off1 i) S8x4096.size (k0_off1_inb i), k0_pay3 x0 x1⟩
/-- The squared-norm tile, stored at the tile's columns of the norm scratch. -/
abbrev normPiece (i : grid0.Coords) (x0 : Vec F S1x4096x128 .f32) : View.Piece (Elt F) S1x16384 .f32 :=
  ⟨Rect.unit (s := S1x16384) (k0_off2 i) S1x4096.size (k0_off2_inb i), k0_pay4 x0⟩

/-- What the whole score scratch reads as once the tile is written over contents s0. -/
abbrev scoresNow (i : grid0.Coords) (arg6 : Memref sig .tc .vmem S8x16384 .f32) (harg6 : arg6.IsWhole) (x0 : Vec F S1x4096x128 .f32) (x1 : Vec F S1x8x128 .f32) (s0 : Vec F S8x16384 .f32) : Vec F S8x16384 .f32 :=
  arg6.view.read (Elt F) (arg6.view.writes (Elt F) (harg6.unread s0) [scorePiece i x0 x1])
/-- What the whole norm scratch reads as once the tile is written over contents s1. -/
abbrev normsNow (i : grid0.Coords) (arg7 : Memref sig .tc .vmem S1x16384 .f32) (harg7 : arg7.IsWhole) (x0 : Vec F S1x4096x128 .f32) (s1 : Vec F S1x16384 .f32) : Vec F S1x16384 .f32 :=
  arg7.view.read (Elt F) (arg7.view.writes (Elt F) (harg7.unread s1) [normPiece i x0])

end Cert.KernelIdeal.Body

end
-- ==== Proof.IdealRunTile.lean ====
/-
  The kernel body at a tile that is not its batch's last: the inputs and the output's buffer are handed
  back as found, each scratch buffer with the tile written over what it held.
-/
import proofs.«154168_j18262200942963_2_alg».proof.Proof.IdealGrid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 400000 in
/-- Not the batch's last tile: the inputs and the output's buffer are handed back as found, each scratch with
    the tile written over what it held. -/
theorem run_tile (c : Dev nD) (i : grid0.Coords) (arg2 : Memref sig .tc .vmem S1x4096x128 .f32) (harg2 : arg2.IsWhole) (arg3 : Memref sig .tc .vmem S1x8x128 .f32) (harg3 : arg3.IsWhole) (arg4 : Memref sig .tc .vmem S1x8x1 .f32) (harg4 : arg4.IsWhole) (arg5 : Memref sig .tc .vmem S1x8x16384 .f32) (harg5 : arg5.IsWhole) (arg6 : Memref sig .tc .vmem S8x16384 .f32) (harg6 : arg6.IsWhole) (arg7 : Memref sig .tc .vmem S1x16384 .f32) (harg7 : arg7.IsWhole) (hc0 : ¬lastTile i)
    (x0 : Vec F S1x4096x128 .f32) (x1 : Vec F S1x8x128 .f32) (x2 : Vec F S1x8x1 .f32) (xi3 : Vec F S1x8x16384 .f32) (s0 : Vec F S8x16384 .f32) (s1 : Vec F S1x16384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare s0 ∗ owns (c : Thread nD τ) arg7 fullShare s1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (arg6.view.loc (c : Thread nD τ) ↦[arg6.view.set]{fullShare} arg6.view.writes (Elt F) (harg6.unread s0) [scorePiece i x0 x1])
                ∗ (arg7.view.loc (c : Thread nD τ) ↦[arg7.view.set]{fullShare} arg7.view.writes (Elt F) (harg7.unread s1) [normPiece i x0])) -∗ K ⟨⟩))
          ⊢ wp frame (wpE (defs₀ (F := F)) Variants.none c none) E (cc0__cosine_weights_kernel i arg2 harg2 arg3 harg3 arg4 harg4 arg5 harg5 arg6 harg6 arg7 harg7) K := by
    intro E K
    simp only [cc0__cosine_weights_kernel_eq_skeleton]; unfold cc0__cosine_weights_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0)
    sl_step
    simp only [View.readAt_eq_ld, harg2.read_unread, harg3.read_unread, View.ld_unit_zero (S := S1x4096x128) hz3, View.ld_unit_zero (S := S1x8x128) hz3]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexact HS0
    iexact HS1

end Cert.KernelIdeal.Body

end
-- ==== Proof.IdealRunLast.lean ====
/-
  The kernel body at a batch's last tile: the tile is written into both scratch buffers as at every point,
  and then the output's buffer, whatever it held, is stored whole with the softmax weights computed from the
  keys, the strengths and the two scratch buffers as they then stand.
-/
import proofs.«154168_j18262200942963_2_alg».proof.Proof.IdealGrid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 800000 in
/-- The batch's last tile: as above, and then the output's buffer, whatever it held, stored whole with the
    softmax weights computed from the keys, the strengths and the two scratch buffers as they now stand. -/
theorem run_last (c : Dev nD) (i : grid0.Coords) (arg2 : Memref sig .tc .vmem S1x4096x128 .f32) (harg2 : arg2.IsWhole) (arg3 : Memref sig .tc .vmem S1x8x128 .f32) (harg3 : arg3.IsWhole) (arg4 : Memref sig .tc .vmem S1x8x1 .f32) (harg4 : arg4.IsWhole) (arg5 : Memref sig .tc .vmem S1x8x16384 .f32) (harg5 : arg5.IsWhole) (arg6 : Memref sig .tc .vmem S8x16384 .f32) (harg6 : arg6.IsWhole) (arg7 : Memref sig .tc .vmem S1x16384 .f32) (harg7 : arg7.IsWhole) (hc0 : lastTile i)
    (x0 : Vec F S1x4096x128 .f32) (x1 : Vec F S1x8x128 .f32) (x2 : Vec F S1x8x1 .f32) (xi3 : Vec F S1x8x16384 .f32) (s0 : Vec F S8x16384 .f32) (s1 : Vec F S1x16384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare s0 ∗ owns (c : Thread nD τ) arg7 fullShare s1
            ∗ (iprop(owns (c : Thread nD τ) arg2 fullShare x0 ∗ owns (c : Thread nD τ) arg3 fullShare x1 ∗ owns (c : Thread nD τ) arg4 fullShare x2
                ∗ owns (c : Thread nD τ) arg5 fullShare (k0_pay5 x1 x2 (normsNow i arg7 harg7 x0 s1) (scoresNow i arg6 harg6 x0 x1 s0))
                ∗ (arg6.view.loc (c : Thread nD τ) ↦[arg6.view.set]{fullShare} arg6.view.writes (Elt F) (harg6.unread s0) [scorePiece i x0 x1])
                ∗ (arg7.view.loc (c : Thread nD τ) ↦[arg7.view.set]{fullShare} arg7.view.writes (Elt F) (harg7.unread s1) [normPiece i x0])) -∗ K ⟨⟩))
          ⊢ wp frame (wpE (defs₀ (F := F)) Variants.none c none) E (cc0__cosine_weights_kernel i arg2 harg2 arg3 harg3 arg4 harg4 arg5 harg5 arg6 harg6 arg7 harg7) K := by
    intro E K
    simp only [cc0__cosine_weights_kernel_eq_skeleton]; unfold cc0__cosine_weights_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0)
    sl_step
    sl_unfold_words
    simp only [View.readAt_eq_ld, harg2.read_unread, harg3.read_unread, harg4.read_unread, View.ld_unit_zero (S := S1x4096x128) hz3, View.ld_unit_zero (S := S1x8x128) hz3, View.ld_unit_zero (S := S1x8x1) hz3, View.ld_unit_zero (S := S8x16384) hz2, View.ld_unit_zero (S := S1x16384) hz2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact (View.read_writes_eq_canon _ _ _ (fun y => ⟨_, List.mem_singleton_self _, View.mem_set_unit_zero hz3 inb_S1x8x16384_S1x8x16384_0_0_0 y⟩)).trans (View.canon_unit_zero hz3 inb_S1x8x16384_S1x8x16384_0_0_0 _)
    isplitl [HS0]
    · iexact HS0
    iexact HS1

end Cert.KernelIdeal.Body

end
-- ==== Proof.IdealData.lean ====
/-
  The kernel's frame run, with what its scratch buffers and its output hold named.

  Before point t (tile k = t mod 4 of batch b = t / 4) the score scratch holds, in its columns below 4096 k,
  the score tiles of the batch's tiles 0 .. k-1, and the norm scratch their squared-norm tiles; what the later
  columns hold is not said (before the very first point, nothing is). Writing tile k extends this to the columns
  below 4096 (k+1); after the last tile of a batch both scratch buffers are the batch's whole score and norm
  rows, which is what the output block is computed from, and the next batch starts again from nothing said.
-/
import proofs.«154168_j18262200942963_2_alg».proof.Proof.IdealRunTile
import proofs.«154168_j18262200942963_2_alg».proof.Proof.IdealRunLast
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N256 : cfg0.N = 256 := N_0
theorem lt256 (t : Fin cfg0.N) : t.val < 256 := lt_of_lt_of_eq t.isLt N256

/-! ## What the scratch buffers hold -/

/-- The point of t's batch whose tile holds column j. -/
def tileOf (t : Fin cfg0.N) (j : ℕ) : Fin cfg0.N :=
  ⟨4 * (t.val / 4) + j / 4096 % 4, lt_of_lt_of_eq (by have := lt256 t; omega) N256.symm⟩

theorem tileOf_congr (t t' : Fin cfg0.N) (h : t.val / 4 = t'.val / 4) (j : ℕ) : tileOf t j = tileOf t' j :=
  Fin.ext (by show 4 * (t.val / 4) + j / 4096 % 4 = 4 * (t'.val / 4) + j / 4096 % 4; rw [h])

/-- A position of a scratch buffer as a row-and-column position inside its tile. -/
abbrev inTile8 (y : S8x16384.Idx) : S8x4096.Idx :=
  ValueIdx.ix2 (⟨(y 0).val, (y 0).isLt⟩ : Fin 8) (⟨(y 1).val % 4096, Nat.mod_lt _ (by decide)⟩ : Fin 4096)
abbrev inTile1 (y : S1x16384.Idx) : S1x4096.Idx :=
  ValueIdx.ix2 (⟨(y 0).val, (y 0).isLt⟩ : Fin 1) (⟨(y 1).val % 4096, Nat.mod_lt _ (by decide)⟩ : Fin 4096)

/-- The whole score rows of t's batch: column j is taken from the score tile of the point whose tile holds j. -/
def batchScores (c : Dev nD) (t : Fin cfg0.N) : Vec F S8x16384 .f32 := fun y =>
  k0_pay3 (iblk m c 0 (tileOf t (y 1).val)) (iblk m c 1 (tileOf t (y 1).val)) (inTile8 y)

/-- The whole squared-norm row of t's batch, likewise. -/
def batchNorms (c : Dev nD) (t : Fin cfg0.N) : Vec F S1x16384 .f32 := fun y =>
  k0_pay4 (iblk m c 0 (tileOf t (y 1).val)) (inTile1 y)

theorem batchScores_congr (c : Dev nD) (t t' : Fin cfg0.N) (h : t.val / 4 = t'.val / 4) : batchScores m c t = batchScores m c t' := by
  funext y; unfold batchScores; rw [tileOf_congr t t' h (y 1).val]
theorem batchNorms_congr (c : Dev nD) (t t' : Fin cfg0.N) (h : t.val / 4 = t'.val / 4) : batchNorms m c t = batchNorms m c t' := by
  funext y; unfold batchNorms; rw [tileOf_congr t t' h (y 1).val]

/-- Writing point t's score tile over contents that already agree with the batch's rows below the tile's
    columns gives contents that agree with them below the next tile's. -/
theorem scores_step (c : Dev nD) (t : Fin cfg0.N) (arg6 : Memref sig .tc .vmem S8x16384 .f32) (harg6 : arg6.IsWhole) (s0 : Vec F S8x16384 .f32)
    (h : ∀ y : S8x16384.Idx, (y 1).val < 4096 * (t.val % 4) → s0 y = batchScores m c t y)
    (y : S8x16384.Idx) (hy : (y 1).val < 4096 * (t.val % 4 + 1)) :
    scoresNow (grid0.coords t) arg6 harg6 (iblk m c 0 t) (iblk m c 1 t) s0 y = batchScores m c t y := by
  have h1 : (y 1).val < 16384 := (y 1).isLt
  have h0 : (y 0).val < 8 := (y 0).isLt
  by_cases hlt : (y 1).val < 4096 * (t.val % 4)
  · rw [← h y hlt]
    refine (View.read_writes_cons_unit_of_not_mem _ _ (k0_off1_inb _) _ [] y (off1_eq t) 1 (Or.inl ?_)).trans ?_
    · show (y 1).val < 4096 * (t.val % 4); exact hlt
    · rw [View.writes_nil]; exact congrFun (harg6.read_unread s0) y
  · refine (View.read_writes_cons_unit_of_mem _ _ (k0_off1_inb _) _ [] y (inTile8 y) (off1_eq t) ?_).trans ?_
    · intro a
      match a with
      | ⟨0, _⟩ => show (y 0).val = 0 + (y 0).val; omega
      | ⟨1, _⟩ => show (y 1).val = 4096 * (t.val % 4) + (y 1).val % 4096; omega
    · unfold batchScores
      have e : tileOf t (y 1).val = t := Fin.ext (by show 4 * (t.val / 4) + (y 1).val / 4096 % 4 = t.val; omega)
      rw [e]

/-- The same for the squared-norm tile. -/
theorem norms_step (c : Dev nD) (t : Fin cfg0.N) (arg7 : Memref sig .tc .vmem S1x16384 .f32) (harg7 : arg7.IsWhole) (s1 : Vec F S1x16384 .f32)
    (h : ∀ y : S1x16384.Idx, (y 1).val < 4096 * (t.val % 4) → s1 y = batchNorms m c t y)
    (y : S1x16384.Idx) (hy : (y 1).val < 4096 * (t.val % 4 + 1)) :
    normsNow (grid0.coords t) arg7 harg7 (iblk m c 0 t) s1 y = batchNorms m c t y := by
  have h1 : (y 1).val < 16384 := (y 1).isLt
  have h0 : (y 0).val < 1 := (y 0).isLt
  by_cases hlt : (y 1).val < 4096 * (t.val % 4)
  · rw [← h y hlt]
    refine (View.read_writes_cons_unit_of_not_mem _ _ (k0_off2_inb _) _ [] y (off2_eq t) 1 (Or.inl ?_)).trans ?_
    · show (y 1).val < 4096 * (t.val % 4); exact hlt
    · rw [View.writes_nil]; exact congrFun (harg7.read_unread s1) y
  · refine (View.read_writes_cons_unit_of_mem _ _ (k0_off2_inb _) _ [] y (inTile1 y) (off2_eq t) ?_).trans ?_
    · intro a
      match a with
      | ⟨0, _⟩ => show (y 0).val = 0 + (y 0).val; omega
      | ⟨1, _⟩ => show (y 1).val = 4096 * (t.val % 4) + (y 1).val % 4096; omega
    · unfold batchNorms
      have e : tileOf t (y 1).val = t := Fin.ext (by show 4 * (t.val / 4) + (y 1).val / 4096 % 4 = t.val; omega)
      rw [e]

/-- Before point n: the columns below 4096 (n mod 4) of both scratch buffers are the batch's. -/
def Filled (c : Dev nD) (n : ℕ) (d0 : Vec F S8x16384 .f32) (d1 : Vec F S1x16384 .f32) : Prop :=
  ∀ t : Fin cfg0.N, t.val = n →
    (∀ y : S8x16384.Idx, (y 1).val < 4096 * (n % 4) → d0 y = batchScores m c t y)
    ∧ (∀ y : S1x16384.Idx, (y 1).val < 4096 * (n % 4) → d1 y = batchNorms m c t y)

theorem filled_zero (c : Dev nD) (n : ℕ) (hn : n % 4 = 0) (d0 : Vec F S8x16384 .f32) (d1 : Vec F S1x16384 .f32) : Filled m c n d0 d1 := by
  intro t _
  rw [hn]
  exact ⟨fun y hy => absurd hy (by omega), fun y hy => absurd hy (by omega)⟩

theorem filled_step (c : Dev nD) (t : Fin cfg0.N) (h3 : ¬t.val % 4 = 3) (d0 : Vec F S8x16384 .f32) (d1 : Vec F S1x16384 .f32)
    (hF : Filled m c t.val d0 d1) :
    Filled m c (t.val + 1) (scoresNow (grid0.coords t) scS (Memref.isWhole_whole _) (iblk m c 0 t) (iblk m c 1 t) d0)
      (normsNow (grid0.coords t) scN (Memref.isWhole_whole _) (iblk m c 0 t) d1) := by
  intro t' ht'
  have hb : t.val / 4 = t'.val / 4 := by omega
  have hm : (t.val + 1) % 4 = t.val % 4 + 1 := by omega
  obtain ⟨hS, hN⟩ := hF t rfl
  rw [hm]
  refine ⟨fun y hy => ?_, fun y hy => ?_⟩
  · rw [← batchScores_congr m c t t' hb]; exact scores_step m c t _ _ d0 hS y hy
  · rw [← batchNorms_congr m c t t' hb]; exact norms_step m c t _ _ d1 hN y hy

/-- At a batch's last tile the score scratch, once the tile is written, is the batch's whole rows. -/
theorem scores_last (c : Dev nD) (t : Fin cfg0.N) (h3 : t.val % 4 = 3) (d0 : Vec F S8x16384 .f32) (d1 : Vec F S1x16384 .f32)
    (hF : Filled m c t.val d0 d1) :
    scoresNow (grid0.coords t) scS (Memref.isWhole_whole _) (iblk m c 0 t) (iblk m c 1 t) d0 = batchScores m c t :=
  funext fun y => scores_step m c t _ _ d0 (hF t rfl).1 y (by have h1 : (y 1).val < 16384 := (y 1).isLt; omega)
theorem norms_last (c : Dev nD) (t : Fin cfg0.N) (h3 : t.val % 4 = 3) (d0 : Vec F S8x16384 .f32) (d1 : Vec F S1x16384 .f32)
    (hF : Filled m c t.val d0 d1) :
    normsNow (grid0.coords t) scN (Memref.isWhole_whole _) (iblk m c 0 t) d1 = batchNorms m c t :=
  funext fun y => norms_step m c t _ _ d1 (hF t rfl).2 y (by have h1 : (y 1).val < 16384 := (y 1).isLt; omega)

/-! ## The invariant and the proof data -/

/-- The region's invariant before point n: the scratch buffers at contents filled so far, the generator register at
    some state. -/
def PhiS (c : Dev nD) (n : ℕ) : sProp 𝕄 :=
  iprop(iprop(∃ d0 d1, ⌜Filled m c n d0 d1⌝ ∗ owns (c : Thread nD τ) scS fullShare d0 ∗ owns (c : Thread nD τ) scN fullShare d1) ∗ (∃ r, prngReg c r))

/-- The proof data: the arrays as the region finds them; after the body each input's buffer at its block, the output's
    (where it is stored: at a batch's last tile) at the softmax weights of the batch's whole score and norm rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (iblk m c 1 t) (iblk m c 2 t) (batchNorms m c t) (batchScores m c t)
  Φ u := PhiS m c u.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay5 (iblk m c 1 t) (iblk m c 2 t) (batchNorms m c t) (batchScores m c t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. The invariant hands it the scratch buffers at contents filled below the tile's columns and
    takes them back filled below the next tile's (or, after a batch's last tile, with nothing said); there the
    output's buffer is left at the softmax weights of the batch's whole rows, which the scratch buffers then are. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h3 : t.val % 4 = 3
  · rw [show (dats m 0 c).leavesExact 3 t = owns (c : Thread nD τ) (ms3 t) fullShare ((dats m 0 c).after 3 t) from by
      unfold Dat.leavesExact; rw [live3 t ((lastTile_iff t).mpr h3)], after3]
    iintro ⟨⟨⟨%d0, %d1, %hF, HS0, HS1⟩, Hg⟩, Ho, ⟨%e0, H0⟩, ⟨%e1, H1⟩, ⟨%e2, H2⟩, ⟨%e3, H3⟩⟩
    rw [← scores_last m c t h3 d0 d1 hF, ← norms_last m c t h3 d0 d1 hF]
    iapply (run_last c (grid0.coords t) _ _ _ _ _ _ _ _ _ _ _ _ ((lastTile_iff t).mpr h3) (iblk m c 0 t) (iblk m c 1 t) (iblk m c 2 t) _ d0 d1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · iexists (scoresNow (grid0.coords t) scS (Memref.isWhole_whole _) (iblk m c 0 t) (iblk m c 1 t) d0), (normsNow (grid0.coords t) scN (Memref.isWhole_whole _) (iblk m c 0 t) d1)
        isplitr
        · ipureintro; exact filled_zero m c (t.val + 1) (by omega) _ _
        isplitl [HS0]
        · unfold owns; iexists _; isplitr; swap; · iexact HS0
          ipureintro; rfl
        unfold owns; iexists _; isplitr; swap; · iexact HS1
        ipureintro; rfl
      iexact Hg
    isplitl [Ho]; · iexact Ho
    isplitl [H0]; · iexact H0
    isplitl [H1]; · iexact H1
    isplitl [H2]; · iexact H2
    iexact H3
  · rw [Dat.leavesExact_idle (dats m 0 c) 3 t (idle3 t (fun h => h3 ((lastTile_iff t).mp h))) (noFlush3 t (fun h => h3 ((lastTile_iff t).mp h)))]
    iintro ⟨⟨⟨%d0, %d1, %hF, HS0, HS1⟩, Hg⟩, Ho, ⟨%e0, H0⟩, ⟨%e1, H1⟩, ⟨%e2, H2⟩, ⟨%e3, H3⟩⟩
    iapply (run_tile c (grid0.coords t) _ _ _ _ _ _ _ _ _ _ _ _ (fun h => h3 ((lastTile_iff t).mp h)) (iblk m c 0 t) (iblk m c 1 t) (iblk m c 2 t) _ d0 d1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · iexists _, _
        isplitr
        · ipureintro; exact filled_step m c t h3 d0 d1 hF
        isplitl [HS0]
        · unfold owns; iexists _; isplitr; swap; · iexact HS0
          ipureintro; rfl
        unfold owns; iexists _; isplitr; swap; · iexact HS1
        ipureintro; rfl
      iexact Hg
    isplitl [Ho]; · iexact Ho
    isplitl [H0]; · iexact H0
    isplitl [H1]; · iexact H1
    isplitl [H2]; · iexact H2
    iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is said of the scratch yet. -/
theorem hin (c : Dev nD) : Pipeline.ΦA spec0 c ⊢ (dats m 0 c).Φ 0 := by
  rw [show (dats m 0 c).Φ 0 = PhiS m c 0 from rfl, PhiA_eq]; unfold PhiS
  iintro ⟨⟨⟨%d0, HS0⟩, ⟨%d1, HS1⟩⟩, Hg⟩
  isplitl [HS0 HS1]
  · iexists d0, d1
    isplitr
    · ipureintro; exact filled_zero m c 0 rfl d0 d1
    isplitl [HS0]; · iexact HS0
    iexact HS1
  iexact Hg

/-- After the last point the invariant gives the scratch buffers back, what they hold forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨%d0, %d1, %hF, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline at what the library computes from
    the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.Spec.lean ====
/-
  The result both programs compute, as one function of the three argument arrays over the extended reals.

  For batch b, head h and memory row j:
    score b h j = Σ_w keys(b,h,w) · mem(b,j,w)
    weight b h j = score b h j / (sqrt (Σ_w mem(b,j,w)²) · sqrt (Σ_w keys(b,h,w)²) + ε) · softplus (strength(b,h))
    result b h j = exp (weight b h j − M b h) / Σ_j' exp (weight b h j' − M b h),   M b h = max_j weight b h j
  with ε and the softplus spelt as both programs spell them (the same float words, the same order of operations).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

variable (mem : (⟨3, ![64, 16384, 128]⟩ : Shape).Idx → EReal) (keys : (⟨3, ![64, 8, 128]⟩ : Shape).Idx → EReal)
  (str : (⟨2, ![64, 8]⟩ : Shape).Idx → EReal)

/-- The float word 0.0, the word of -∞, and the ε both programs add to the denominator. -/
abbrev zw : EReal := Ideal.ofBits .f32 0x00000000#32
abbrev ninf : EReal := Ideal.ofBits .f32 0xFF800000#32
abbrev eps : EReal := Ideal.ofBits .f32 0x358637BD#32

/-- The dot product of key h with memory row j, in batch b. -/
def score (b : Fin 64) (h : Fin 8) (j : Fin 16384) : EReal := ∑ w : Fin 128, keys (ix3 b h w) * mem (ix3 b j w)
/-- The squared norm of memory row j, and of key h. -/
def sqMem (b : Fin 64) (j : Fin 16384) : EReal := ∑ w : Fin 128, mem (ix3 b j w) * mem (ix3 b j w)
def sqKey (b : Fin 64) (h : Fin 8) : EReal := ∑ w : Fin 128, keys (ix3 b h w) * keys (ix3 b h w)

/-- softplus x = log (1 + e^x), as jax spells logaddexp(x, 0): max(x, 0) + log1p(exp(−|x − 0|)), guarded by a
    test that x − 0 differs from itself, which no extended real does. -/
def softplus (x : EReal) : EReal :=
  Scalar.select (Ideal.cmp .une (x - zw) (x - zw)) (x + zw)
    (max x zw + Ideal.log1p (Ideal.exp (-(max (x - zw) (-(x - zw))))))

/-- The cosine-like score of key h against row j, sharpened by the head's strength. -/
def weight (b : Fin 64) (h : Fin 8) (j : Fin 16384) : EReal :=
  Ideal.div (score mem keys b h j) (Ideal.sqrt (sqMem mem b j) * Ideal.sqrt (sqKey keys b h) + eps) * softplus (str (ix2 b h))

/-- The largest weight of head h over the rows (folded from -∞, and once more against -∞, as both programs do). -/
def rowMax (b : Fin 64) (h : Fin 8) : EReal :=
  max ninf ((Finset.univ : Finset (Fin 16384)).fold max ninf (fun j => weight mem keys str b h j))

def expW (b : Fin 64) (h : Fin 8) (j : Fin 16384) : EReal := Ideal.exp (weight mem keys str b h j - rowMax mem keys str b h)

/-- The softmax over the rows. -/
def result (i : (⟨3, ![64, 8, 16384]⟩ : Shape).Idx) : EReal :=
  Ideal.div (expW mem keys str (i 0) (i 1) (i 2)) (∑ j : Fin 16384, expW mem keys str (i 0) (i 1) j)

end Cert.Spec

end
-- ==== Proof.IdealPayload.lean ====
/-
  What the kernel body computes, read at an index over the extended reals.

  The score tile is, at (h, r), the dot product of key row h with memory row r of the tile; the squared-norm
  tile, at (0, r), the sum of the squares of memory row r (its matrix product with a row of ones: each term is
  1 · x², and 1 · y = y on every extended real). The output block is, at (0, h, j), the softmax over j of
  W(h, j) = S(h, j) / (sqrt N(0, j) · sqrt (Σ_w key(h,w)²) + ε) · softplus (strength h), for whatever score rows S
  and norm row N the two scratch buffers hold: the row maximum is a fold of max over the 16384 columns from -∞,
  the row sum a plain sum of the exponentials.
-/
import proofs.«154168_j18262200942963_2_alg».proof.Proof.Gen.KernelIdeal.Skeleton
import proofs.«154168_j18262200942963_2_alg».proof.Proof.LibKeepdims
import proofs.«154168_j18262200942963_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Idealize.ShloMosaic.Keepdims Cert.Spec

/-! ## The blocks with their unit axis cast away -/

theorem pay1_apply (v0 : Vec Ideal S1x4096x128 .f32) (r : Fin 4096) (w : Fin 128) :
    k0_pay1 v0 (ix2 r w) = v0 (ix3 (0 : Fin 1) r w) := by
  unfold k0_pay1; exact shapeCast_1ab_ab_apply v0 _ r w

theorem pay2_apply (v2 : Vec Ideal S1x8x128 .f32) (h : Fin 8) (w : Fin 128) :
    k0_pay2 v2 (ix2 h w) = v2 (ix3 (0 : Fin 1) h w) := by
  unfold k0_pay2; exact shapeCast_1ab_ab_apply v2 _ h w

/-! ## The two products: both contract the last axis of both operands -/

theorem lhs8_0 (i : S8x4096.Idx) (q : dot_S8x128_S4096x128_S8x4096_1_1_0_0_n_n.contr.Idx) : (dot_S8x128_S4096x128_S8x4096_1_1_0_0_n_n.lhsIdx i q 0).val = (i 0).val := by
  unfold DotDims.lhsIdx
  rw [dif_neg (show ¬(0 : Fin S8x128.rank) ∈ dot_S8x128_S4096x128_S8x4096_1_1_0_0_n_n.lhsBatch by decide), dif_pos (show (0 : Fin S8x128.rank) ∈ dot_S8x128_S4096x128_S8x4096_1_1_0_0_n_n.lhsNonContracting by decide)]
  rfl
theorem lhs8_1 (i : S8x4096.Idx) (q : dot_S8x128_S4096x128_S8x4096_1_1_0_0_n_n.contr.Idx) : (dot_S8x128_S4096x128_S8x4096_1_1_0_0_n_n.lhsIdx i q 1).val = (q ⟨0, by decide⟩).val :=
  dot_S8x128_S4096x128_S8x4096_1_1_0_0_n_n.lhsIdx_val_of_single rfl i q
theorem rhs8_0 (i : S8x4096.Idx) (q : dot_S8x128_S4096x128_S8x4096_1_1_0_0_n_n.contr.Idx) : (dot_S8x128_S4096x128_S8x4096_1_1_0_0_n_n.rhsIdx i q 0).val = (i 1).val := by
  unfold DotDims.rhsIdx
  rw [dif_neg (show ¬(0 : Fin S4096x128.rank) ∈ dot_S8x128_S4096x128_S8x4096_1_1_0_0_n_n.rhsBatch by decide), dif_pos (show (0 : Fin S4096x128.rank) ∈ dot_S8x128_S4096x128_S8x4096_1_1_0_0_n_n.rhsNonContracting by decide)]
  rfl
theorem rhs8_1 (i : S8x4096.Idx) (q : dot_S8x128_S4096x128_S8x4096_1_1_0_0_n_n.contr.Idx) : (dot_S8x128_S4096x128_S8x4096_1_1_0_0_n_n.rhsIdx i q 1).val = (q ⟨0, by decide⟩).val :=
  dot_S8x128_S4096x128_S8x4096_1_1_0_0_n_n.rhsIdx_val_of_single rfl i q

theorem rhs1_0 (i : S1x4096.Idx) (q : dot_S1x128_S4096x128_S1x4096_1_1_0_0_n_n.contr.Idx) : (dot_S1x128_S4096x128_S1x4096_1_1_0_0_n_n.rhsIdx i q 0).val = (i 1).val := by
  unfold DotDims.rhsIdx
  rw [dif_neg (show ¬(0 : Fin S4096x128.rank) ∈ dot_S1x128_S4096x128_S1x4096_1_1_0_0_n_n.rhsBatch by decide), dif_pos (show (0 : Fin S4096x128.rank) ∈ dot_S1x128_S4096x128_S1x4096_1_1_0_0_n_n.rhsNonContracting by decide)]
  rfl
theorem rhs1_1 (i : S1x4096.Idx) (q : dot_S1x128_S4096x128_S1x4096_1_1_0_0_n_n.contr.Idx) : (dot_S1x128_S4096x128_S1x4096_1_1_0_0_n_n.rhsIdx i q 1).val = (q ⟨0, by decide⟩).val :=
  dot_S1x128_S4096x128_S1x4096_1_1_0_0_n_n.rhsIdx_val_of_single rfl i q

/-- The score tile at (h, r): key row h against memory row r. -/
theorem pay3_apply (v0 : Vec Ideal S1x4096x128 .f32) (v2 : Vec Ideal S1x8x128 .f32) (h : Fin 8) (r : Fin 4096) :
    k0_pay3 v0 v2 (ix2 h r) = ∑ w : Fin 128, v2 (ix3 (0 : Fin 1) h w) * v0 (ix3 (0 : Fin 1) r w) := by
  unfold k0_pay3
  rw [shapeCast_self]
  simp only [matmul]
  rw [Ideal.matmul_constant_zero_apply, ← Equiv.sum_comp (contrEquiv1 dot_S8x128_S4096x128_S8x4096_1_1_0_0_n_n 128 rfl rfl).symm]
  refine Finset.sum_congr rfl fun k _ => ?_
  have hk := contrEquiv1_symm_val dot_S8x128_S4096x128_S8x4096_1_1_0_0_n_n 128 rfl rfl k
  have el : dot_S8x128_S4096x128_S8x4096_1_1_0_0_n_n.lhsIdx (ix2 h r) ((contrEquiv1 dot_S8x128_S4096x128_S8x4096_1_1_0_0_n_n 128 rfl rfl).symm k) = ix2 h k := funext fun a => Fin.ext (by
    match a with
    | ⟨0, _⟩ => exact lhs8_0 _ _
    | ⟨1, _⟩ => exact (lhs8_1 _ _).trans hk)
  have er : dot_S8x128_S4096x128_S8x4096_1_1_0_0_n_n.rhsIdx (ix2 h r) ((contrEquiv1 dot_S8x128_S4096x128_S8x4096_1_1_0_0_n_n 128 rfl rfl).symm k) = ix2 r k := funext fun a => Fin.ext (by
    match a with
    | ⟨0, _⟩ => exact rhs8_0 _ _
    | ⟨1, _⟩ => exact (rhs8_1 _ _).trans hk)
  rw [el, er]
  show k0_pay2 v2 (ix2 h k) * k0_pay1 v0 (ix2 r k) = _
  rw [pay2_apply, pay1_apply]

/-- The squared-norm tile at (0, r): the sum of the squares of memory row r. -/
theorem pay4_apply (v0 : Vec Ideal S1x4096x128 .f32) (r : Fin 4096) :
    k0_pay4 v0 (ix2 (0 : Fin 1) r) = ∑ w : Fin 128, v0 (ix3 (0 : Fin 1) r w) * v0 (ix3 (0 : Fin 1) r w) := by
  unfold k0_pay4
  rw [shapeCast_self]
  simp only [matmul]
  rw [Ideal.matmul_constant_zero_apply, ← Equiv.sum_comp (contrEquiv1 dot_S1x128_S4096x128_S1x4096_1_1_0_0_n_n 128 rfl rfl).symm]
  refine Finset.sum_congr rfl fun k _ => ?_
  have hk := contrEquiv1_symm_val dot_S1x128_S4096x128_S1x4096_1_1_0_0_n_n 128 rfl rfl k
  have er : dot_S1x128_S4096x128_S1x4096_1_1_0_0_n_n.rhsIdx (ix2 (0 : Fin 1) r) ((contrEquiv1 dot_S1x128_S4096x128_S1x4096_1_1_0_0_n_n 128 rfl rfl).symm k) = ix2 r k := funext fun a => Fin.ext (by
    match a with
    | ⟨0, _⟩ => exact rhs1_0 _ _
    | ⟨1, _⟩ => exact (rhs1_1 _ _).trans hk)
  rw [er]
  show Ideal.ofBits .f32 0x3F800000#32 * (k0_pay1 v0 (ix2 r k) * k0_pay1 v0 (ix2 r k)) = _
  rw [Ideal.ofBits_one_f32, one_mul, pay1_apply]

/-! ## The output block, taken apart -/

/-- The column of key norms. -/
def keyNorm (v2 : Vec Ideal S1x8x128 .f32) : FVec Ideal S8x1 .f32 :=
  sqrt (shapeCast S8x1 (multiReduction .add [1] S8 (mulf (k0_pay2 v2) (k0_pay2 v2)) 0x00000000#32 reduces_S8x128_S8 (.inl rfl) rfl) shapeCasts_S8_S8x1)

/-- The column of strengths, and a column of the zero word. -/
def strCol (v4 : Vec Ideal S1x8x1 .f32) : FVec Ideal S8x1 .f32 := shapeCast S8x1 v4 shapeCasts_S1x8x1_S8x1
def zCol : FVec Ideal S8x1 .f32 := broadcast S8x1 (Scalar.ofBits .f32 0x00000000#32)

/-- The column of softplus'd strengths. -/
def spCol (v4 : Vec Ideal S1x8x1 .f32) : FVec Ideal S8x1 .f32 :=
  select (cmpf .one (subf (strCol v4) zCol) (subf (strCol v4) zCol)) (addf (strCol v4) zCol)
    (addf (maximumf (strCol v4) zCol) (log1p (exp (subf zCol (absf (subf (strCol v4) zCol))))))

/-- The weights: scores over the product of the norms plus ε, times the softplus'd strength. -/
def wgtMat (v2 : Vec Ideal S1x8x128 .f32) (v4 : Vec Ideal S1x8x1 .f32) (v25 : Vec Ideal S1x16384 .f32) (v36 : Vec Ideal S8x16384 .f32) : FVec Ideal S8x16384 .f32 :=
  mulf (divf v36 (addf (mulf (broadcastTo S8x16384 (sqrt v25) broadcasts_S1x16384_S8x16384) (broadcastTo S8x16384 (keyNorm v2) broadcasts_S8x1_S8x16384))
      (broadcast S8x16384 (Scalar.ofBits .f32 0x358637BD#32))))
    (broadcastTo S8x16384 (spCol v4) broadcasts_S8x1_S8x16384)

/-- The column of row maxima. -/
def mxCol (W : FVec Ideal S8x16384 .f32) : FVec Ideal S8x1 .f32 :=
  shapeCast S8x1 (maximumf (broadcast S8 (Scalar.ofBits .f32 0xFF800000#32)) (multiReduction .maximumf [1] S8 W 0xFF800000#32 reduces_S8x16384_S8 (.inl rfl) rfl)) shapeCasts_S8_S8x1

/-- The exponentials of the weights less their row's maximum. -/
def exMat (W : FVec Ideal S8x16384 .f32) : FVec Ideal S8x16384 .f32 :=
  exp (subf W (broadcastTo S8x16384 (mxCol W) broadcasts_S8x1_S8x16384))

set_option maxRecDepth 65536 in
/-- The output block is the exponentials over their row sums, with a unit axis in front. -/
theorem pay5_eq (v2 : Vec Ideal S1x8x128 .f32) (v4 : Vec Ideal S1x8x1 .f32) (v25 : Vec Ideal S1x16384 .f32) (v36 : Vec Ideal S8x16384 .f32) :
    k0_pay5 v2 v4 v25 v36 = shapeCast S1x8x16384 (divf (exMat (wgtMat v2 v4 v25 v36))
      (broadcastTo S8x16384 (shapeCast S8x1 (multiReduction .add [1] S8 (exMat (wgtMat v2 v4 v25 v36)) 0x00000000#32 reduces_S8x16384_S8 (.inl rfl) rfl) shapeCasts_S8_S8x1) broadcasts_S8x1_S8x16384))
      shapeCasts_S8x16384_S1x8x16384 := rfl

theorem keyNorm_apply (v2 : Vec Ideal S1x8x128 .f32) (h : Fin 8) (u : Fin 1) :
    keyNorm v2 (ix2 h u) = Ideal.sqrt (∑ w : Fin 128, v2 (ix3 (0 : Fin 1) h w) * v2 (ix3 (0 : Fin 1) h w)) := by
  unfold keyNorm
  show Ideal.sqrt (shapeCast S8x1 _ shapeCasts_S8_S8x1 (ix2 h u)) = _
  rw [shapeCast_a_a1_apply]
  refine congrArg Ideal.sqrt ((Ideal.multiReduction_add_single _ _ reduces_S8x128_S8 _ _ (ix1 h)).trans (Finset.sum_congr rfl fun w _ => ?_))
  have hw : w.val < 128 := w.isLt
  have e : reduces_S8x128_S8.lift (ix1 h) w = ix2 h (⟨w.val, hw⟩ : Fin 128) := funext fun a => Fin.ext (by match a with | ⟨0, _⟩ => rfl | ⟨1, _⟩ => rfl)
  refine (congrArg (mulf (k0_pay2 v2) (k0_pay2 v2)) e).trans ?_
  show k0_pay2 v2 (ix2 h ⟨w.val, hw⟩) * k0_pay2 v2 (ix2 h ⟨w.val, hw⟩) = _
  rw [pay2_apply]
  rfl

theorem spCol_apply (v4 : Vec Ideal S1x8x1 .f32) (h : Fin 8) (u : Fin 1) :
    spCol v4 (ix2 h u) = softplus (v4 (ix3 (0 : Fin 1) h u)) := by
  have e : strCol v4 (ix2 h u) = v4 (ix3 (0 : Fin 1) h u) := by unfold strCol; exact shapeCast_1ab_ab_apply v4 _ h u
  unfold spCol softplus
  show Scalar.select (Ideal.cmp .one (strCol v4 (ix2 h u) - zw) (strCol v4 (ix2 h u) - zw)) (strCol v4 (ix2 h u) + zw)
      (max (strCol v4 (ix2 h u)) zw + Ideal.log1p (Ideal.exp (zw - max (strCol v4 (ix2 h u) - zw) (-(strCol v4 (ix2 h u) - zw))))) = _
  rw [e, show (zw : EReal) - max (v4 (ix3 (0 : Fin 1) h u) - zw) (-(v4 (ix3 (0 : Fin 1) h u) - zw)) = -(max (v4 (ix3 (0 : Fin 1) h u) - zw) (-(v4 (ix3 (0 : Fin 1) h u) - zw))) from by
    rw [show (zw : EReal) = 0 from Ideal.ofBits_zero_f32, zero_sub]]
  rfl

theorem wgtMat_apply (v2 : Vec Ideal S1x8x128 .f32) (v4 : Vec Ideal S1x8x1 .f32) (v25 : Vec Ideal S1x16384 .f32) (v36 : Vec Ideal S8x16384 .f32)
    (h : Fin 8) (j : Fin 16384) :
    wgtMat v2 v4 v25 v36 (ix2 h j) = Ideal.div (v36 (ix2 h j))
        (Ideal.sqrt (v25 (ix2 (0 : Fin 1) j)) * Ideal.sqrt (∑ w : Fin 128, v2 (ix3 (0 : Fin 1) h w) * v2 (ix3 (0 : Fin 1) h w)) + eps)
      * softplus (v4 (ix3 (0 : Fin 1) h (0 : Fin 1))) := by
  unfold wgtMat
  rw [mulf_apply, divf_apply, addf_apply, mulf_apply, broadcastTo_1b_ab_apply, broadcastTo_a1_ab_apply, broadcastTo_a1_ab_apply, keyNorm_apply, spCol_apply]
  rfl

theorem mxCol_apply (W : FVec Ideal S8x16384 .f32) (h : Fin 8) (u : Fin 1) :
    mxCol W (ix2 h u) = max ninf ((Finset.univ : Finset (Fin 16384)).fold max ninf (fun j => W (ix2 h j))) := by
  unfold mxCol
  rw [shapeCast_a_a1_apply]
  show max ninf (multiReduction .maximumf [1] S8 W 0xFF800000#32 reduces_S8x16384_S8 (.inl rfl) rfl (ix1 h)) = _
  refine congrArg (max ninf) ((Ideal.multiReduction_maximumf_single W _ reduces_S8x16384_S8 _ _ (ix1 h)).trans (Finset.fold_congr fun k _ => ?_))
  have hk : k.val < 16384 := k.isLt
  exact congrArg W (show reduces_S8x16384_S8.lift (ix1 h) k = ix2 h (⟨k.val, hk⟩ : Fin 16384) from funext fun a => Fin.ext (by match a with | ⟨0, _⟩ => rfl | ⟨1, _⟩ => rfl))

theorem exMat_apply (W : FVec Ideal S8x16384 .f32) (h : Fin 8) (j : Fin 16384) :
    exMat W (ix2 h j) = Ideal.exp (W (ix2 h j) - max ninf ((Finset.univ : Finset (Fin 16384)).fold max ninf (fun j' => W (ix2 h j')))) := by
  unfold exMat
  show Ideal.exp (W (ix2 h j) - broadcastTo S8x16384 (mxCol W) broadcasts_S8x1_S8x16384 (ix2 h j)) = _
  rw [broadcastTo_a1_ab_apply, mxCol_apply]

set_option maxRecDepth 65536 in
/-- The output block at (0, h, j): the softmax over the columns of row h of the weights. -/
theorem pay5_apply (v2 : Vec Ideal S1x8x128 .f32) (v4 : Vec Ideal S1x8x1 .f32) (v25 : Vec Ideal S1x16384 .f32) (v36 : Vec Ideal S8x16384 .f32)
    (h : Fin 8) (j : Fin 16384) :
    k0_pay5 v2 v4 v25 v36 (ix3 (0 : Fin 1) h j)
      = Ideal.div (exMat (wgtMat v2 v4 v25 v36) (ix2 h j)) (∑ j' : Fin 16384, exMat (wgtMat v2 v4 v25 v36) (ix2 h j')) := by
  rw [pay5_eq, shapeCast_ab_1ab_apply]
  show Ideal.div (exMat (wgtMat v2 v4 v25 v36) (ix2 h j)) (broadcastTo S8x16384 (shapeCast S8x1 _ shapeCasts_S8_S8x1) broadcasts_S8x1_S8x16384 (ix2 h j)) = _
  rw [column_spread]
  refine congrArg (Ideal.div _) ((Ideal.multiReduction_add_single _ _ reduces_S8x16384_S8 _ _ (ix1 h)).trans (Finset.sum_congr rfl fun k _ => ?_))
  have hk : k.val < 16384 := k.isLt
  exact congrArg (exMat (wgtMat v2 v4 v25 v36)) (show reduces_S8x16384_S8.lift (ix1 h) k = ix2 h (⟨k.val, hk⟩ : Fin 16384) from funext fun a => Fin.ext (by match a with | ⟨0, _⟩ => rfl | ⟨1, _⟩ => rfl))

end Cert.KernelIdeal.Pay

end
-- ==== Proof.IdealValue.lean ====
/-
  The kernel's result array is the specification's function of the argument arrays.

  Point t (tile k = t mod 4 of batch b = t / 4) is handed rows 4096 k .. 4096 k + 4095 of memory batch b, the
  keys of batch b and the strengths of batch b (as the column the host's broadcast makes of them). So the
  batch's whole score rows are, at (h, j), the dot product of key h with memory row j, its whole norm row, at
  (0, j), the sum of the squares of row j; the block the batch's last tile stores is the specification at
  (b, h, j); the 64 blocks written back (one per batch, at the batch's last tile) cover the result array.
-/
import proofs.«154168_j18262200942963_2_alg».proof.Proof.IdealData
import proofs.«154168_j18262200942963_2_alg».proof.Proof.IdealPayload
import Idealize.ShloMosaic.Lib.StableHlo.Run
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay Cert.Spec

variable (m : (ℓ : Loc nD τ sig) → Buf (Elt Ideal) ℓ) (ρ : Dev nD → PrngReg)

/-- The three argument arrays on core c, as functions of an index. -/
abbrev memA (c : Dev nD) : S64x16384x128.Idx → EReal := m ((c : Thread nD τ).loc main_arg0)
abbrev keyA (c : Dev nD) : S64x8x128.Idx → EReal := m ((c : Thread nD τ).loc main_arg1)
abbrev strA (c : Dev nD) : S64x8.Idx → EReal := m ((c : Thread nD τ).loc main_arg2)

/-- The specification at the argument arrays of core c. -/
abbrev specAt (c : Dev nD) : S64x8x16384.Idx → EReal := result (memA m c) (keyA m c) (strA m c)

/-! ## Which block of which array a point is handed -/

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

/-- The strengths reach the kernel as a [64, 8, 1] array: the host's broadcast of the [64, 8] argument. -/
theorem V_v0 (c : Dev nD) : (V m c main_v0 : S64x8x1.Idx → EReal)
    = broadcastInDim S64x8x1 ![0, 1] bcast_S64x8_S64x8x1_0_1 (m ((c : Thread nD τ).loc main_arg2) : S64x8.Idx → EReal) := by
  dsimp only [Gen.V, Gen.hostOps0]; after_results <;> rfl

/-- Memory's block at point t: rows 4096 (t mod 4) + r of batch t / 4. -/
theorem iblk0_at (c : Dev nD) (t : Fin cfg0.N) (x : S1x4096x128.Idx) (k : S64x16384x128.Idx)
    (hk0 : (k 0).val = t.val / 4) (hk1 : (k 1).val = 4096 * (t.val % 4) + (x 1).val) (hk2 : (k 2).val = (x 2).val) :
    (iblk m c 0 t : Vec Ideal S1x4096x128 .f32) x = memA m c k := by
  obtain ⟨h0, h1, h2⟩ := idx0 t
  have hx0 : (x 0).val < 1 := (x 0).isLt
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * (x 0).val = (k 0).val; rw [h0, hk0]; omega
  | ⟨1, _⟩ => show win0_0.index t (1 : Fin 3) * 4096 + 1 * (x 1).val = (k 1).val; rw [h1, hk1]; omega
  | ⟨2, _⟩ => show win0_0.index t (2 : Fin 3) * 128 + 1 * (x 2).val = (k 2).val; rw [h2, hk2]; omega

/-- The keys' block at point t: the keys of batch t / 4. -/
theorem iblk1_at (c : Dev nD) (t : Fin cfg0.N) (x : S1x8x128.Idx) (k : S64x8x128.Idx)
    (hk0 : (k 0).val = t.val / 4) (hk1 : (k 1).val = (x 1).val) (hk2 : (k 2).val = (x 2).val) :
    (iblk m c 1 t : Vec Ideal S1x8x128 .f32) x = keyA m c k := by
  obtain ⟨h0, h1, h2⟩ := idx1 t
  have hx0 : (x 0).val < 1 := (x 0).isLt
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 1 + 1 * (x 0).val = (k 0).val; rw [h0, hk0]; omega
  | ⟨1, _⟩ => show win0_1.index t (1 : Fin 3) * 8 + 1 * (x 1).val = (k 1).val; rw [h1, hk1]; omega
  | ⟨2, _⟩ => show win0_1.index t (2 : Fin 3) * 128 + 1 * (x 2).val = (k 2).val; rw [h2, hk2]; omega

/-- The strengths' block at point t: the strengths of batch t / 4. -/
theorem iblk2_at (c : Dev nD) (t : Fin cfg0.N) (x : S1x8x1.Idx) (k : S64x8.Idx)
    (hk0 : (k 0).val = t.val / 4) (hk1 : (k 1).val = (x 1).val) :
    (iblk m c 2 t : Vec Ideal S1x8x1 .f32) x = strA m c k := by
  obtain ⟨h0, h1, h2⟩ := idx2 t
  have hx0 : (x 0).val < 1 := (x 0).isLt
  unfold iblk
  rw [View.read_apply]
  show V m c main_v0 _ = _
  rw [V_v0 m c]
  refine broadcastInDim_apply _ bcast_S64x8_S64x8x1_0_1 _ _ k (fun a => ?_)
  match a with
  | ⟨0, _⟩ => show (k 0).val = if (64 : Nat) = 1 then 0 else (win0_2.index t (0 : Fin 3) * 1 + 1 * (x 0).val); rw [if_neg (by decide), h0, hk0]; omega
  | ⟨1, _⟩ => show (k 1).val = if (8 : Nat) = 1 then 0 else (win0_2.index t (1 : Fin 3) * 8 + 1 * (x 1).val); rw [if_neg (by decide), h1, hk1]; omega

/-! ## The scratch rows of a batch are the specification's scores and squared norms -/

theorem batchScores_at (c : Dev nD) (t : Fin cfg0.N) (b : Fin 64) (hb : b.val = t.val / 4) (h : Fin 8) (j : Fin 16384) :
    batchScores m c t (ix2 h j) = score (memA m c) (keyA m c) b h j := by
  have hj : j.val < 16384 := j.isLt
  unfold batchScores score
  show k0_pay3 (iblk m c 0 (tileOf t j.val)) (iblk m c 1 (tileOf t j.val)) (ix2 h (⟨j.val % 4096, Nat.mod_lt _ (by decide)⟩ : Fin 4096)) = _
  refine (pay3_apply (iblk m c 0 (tileOf t j.val)) (iblk m c 1 (tileOf t j.val)) h ⟨j.val % 4096, Nat.mod_lt _ (by decide)⟩).trans (Finset.sum_congr rfl fun w _ => ?_)
  rw [iblk1_at m c (tileOf t j.val) (ix3 (0 : Fin 1) h w) (ix3 b h w) (by show b.val = (4 * (t.val / 4) + j.val / 4096 % 4) / 4; omega) rfl rfl,
    iblk0_at m c (tileOf t j.val) (ix3 (0 : Fin 1) (⟨j.val % 4096, Nat.mod_lt _ (by decide)⟩ : Fin 4096) w) (ix3 b j w)
      (by show b.val = (4 * (t.val / 4) + j.val / 4096 % 4) / 4; omega)
      (by show j.val = 4096 * ((4 * (t.val / 4) + j.val / 4096 % 4) % 4) + j.val % 4096; omega) rfl]

theorem batchNorms_at (c : Dev nD) (t : Fin cfg0.N) (b : Fin 64) (hb : b.val = t.val / 4) (j : Fin 16384) :
    batchNorms m c t (ix2 (0 : Fin 1) j) = sqMem (memA m c) b j := by
  have hj : j.val < 16384 := j.isLt
  unfold batchNorms sqMem
  show k0_pay4 (iblk m c 0 (tileOf t j.val)) (ix2 (0 : Fin 1) (⟨j.val % 4096, Nat.mod_lt _ (by decide)⟩ : Fin 4096)) = _
  refine (pay4_apply (iblk m c 0 (tileOf t j.val)) ⟨j.val % 4096, Nat.mod_lt _ (by decide)⟩).trans (Finset.sum_congr rfl fun w _ => ?_)
  rw [iblk0_at m c (tileOf t j.val) (ix3 (0 : Fin 1) (⟨j.val % 4096, Nat.mod_lt _ (by decide)⟩ : Fin 4096) w) (ix3 b j w)
      (by show b.val = (4 * (t.val / 4) + j.val / 4096 % 4) / 4; omega)
      (by show j.val = 4096 * ((4 * (t.val / 4) + j.val / 4096 % 4) % 4) + j.val % 4096; omega) rfl]

/-! ## The block a batch's last tile stores -/

/-- A key block whose row h is key h of batch b has the specification's squared key norm. -/
theorem sqKey_of (v2 : Vec Ideal S1x8x128 .f32) (key : S64x8x128.Idx → EReal) (b : Fin 64) (h : Fin 8)
    (hv : ∀ w : Fin 128, v2 (ix3 (0 : Fin 1) h w) = key (ix3 b h w)) :
    (∑ w : Fin 128, v2 (ix3 (0 : Fin 1) h w) * v2 (ix3 (0 : Fin 1) h w)) = sqKey key b h := by
  unfold sqKey
  exact Finset.sum_congr rfl fun w _ => by rw [hv w]

/-- The weights the body forms from the batch's rows are the specification's. -/
theorem weight_at (c : Dev nD) (t : Fin cfg0.N) (b : Fin 64) (hb : b.val = t.val / 4) (h : Fin 8) (j : Fin 16384) :
    wgtMat (iblk m c 1 t) (iblk m c 2 t) (batchNorms m c t) (batchScores m c t) (ix2 h j) = weight (memA m c) (keyA m c) (strA m c) b h j := by
  refine (wgtMat_apply (iblk m c 1 t) (iblk m c 2 t) (batchNorms m c t) (batchScores m c t) h j).trans ?_
  have hk := sqKey_of (iblk m c 1 t) (keyA m c) b h (fun w => iblk1_at m c t (ix3 (0 : Fin 1) h w) (ix3 b h w) hb rfl rfl)
  rw [batchScores_at m c t b hb h j, batchNorms_at m c t b hb j, hk, iblk2_at m c t (ix3 (0 : Fin 1) h (0 : Fin 1)) (ix2 b h) hb rfl]
  rfl

theorem exp_at (c : Dev nD) (t : Fin cfg0.N) (b : Fin 64) (hb : b.val = t.val / 4) (h : Fin 8) (j : Fin 16384) :
    exMat (wgtMat (iblk m c 1 t) (iblk m c 2 t) (batchNorms m c t) (batchScores m c t)) (ix2 h j) = expW (memA m c) (keyA m c) (strA m c) b h j := by
  rw [exMat_apply, weight_at m c t b hb h j]
  unfold expW rowMax
  refine congrArg (fun z => Ideal.exp (weight (memA m c) (keyA m c) (strA m c) b h j - max ninf z)) (Finset.fold_congr fun j' _ => ?_)
  exact weight_at m c t b hb h j'

set_option maxRecDepth 65536 in
/-- The stored block at (0, h, j) is the specification at (t / 4, h, j). -/
theorem out_at (c : Dev nD) (t : Fin cfg0.N) (x : S1x8x16384.Idx) (i : S64x8x16384.Idx)
    (h0 : (i 0).val = t.val / 4) (h1 : (i 1).val = (x 1).val) (h2 : (i 2).val = (x 2).val) :
    k0_pay5 (iblk m c 1 t) (iblk m c 2 t) (batchNorms m c t) (batchScores m c t) x = specAt m c i := by
  have hx0 : (x 0).val < 1 := (x 0).isLt
  obtain ⟨u, h, j, rfl⟩ : ∃ (u : Fin 1) (h : Fin 8) (j : Fin 16384), x = ix3 u h j := ⟨x 0, x 1, x 2, eq_ix3 x⟩
  obtain rfl : u = 0 := Fin.ext (by omega)
  obtain ⟨b, h', j', rfl⟩ : ∃ (b : Fin 64) (h' : Fin 8) (j' : Fin 16384), i = ix3 b h' j' := ⟨i 0, i 1, i 2, eq_ix3 i⟩
  obtain rfl : h' = h := Fin.ext h1
  obtain rfl : j' = j := Fin.ext h2
  refine (pay5_apply (iblk m c 1 t) (iblk m c 2 t) (batchNorms m c t) (batchScores m c t) h' j').trans ?_
  show _ = Ideal.div (expW (memA m c) (keyA m c) (strA m c) b h' j') (∑ q : Fin 16384, expW (memA m c) (keyA m c) (strA m c) b h' q)
  rw [exp_at m c t b h0 h' j']
  exact congrArg (Ideal.div _) (Finset.sum_congr rfl fun q _ => exp_at m c t b h0 h' q)

/-! ## From the blocks to the array -/

set_option maxRecDepth 100000 in
/-- What a batch's last tile writes back is the batch's block of the specification. -/
theorem flushed_eq (c : Dev nD) (t : Fin cfg0.N) (hf : (cfg0.win 3).flush t = true) :
    (dats m 0 c).flushed 3 t = ((cfg0.win 3).blk t).view.read (Elt Ideal) (specAt m c) := by
  show (cfg0.win 3).cut (grid0.coords t) ((dats m 0 c).after 3 t) = _
  rw [after3]
  obtain ⟨e0, e1, e2⟩ := idx3 t
  funext x
  refine out_at m c t x (((cfg0.win 3).blk t).view.emb x) ?_ ?_ ?_
  · show win0_3.index t (0 : Fin 3) * 1 + 1 * (x 0).val = t.val / 4
    have hx0 : (x 0).val < 1 := (x 0).isLt
    rw [e0]; omega
  · show win0_3.index t (1 : Fin 3) * 8 + 1 * (x 1).val = (x 1).val
    rw [e1]; omega
  · show win0_3.index t (2 : Fin 3) * 16384 + 1 * (x 2).val = (x 2).val
    rw [e2]; omega

/-- An index of the result array is in point t's block iff each coordinate is in the block's range. -/
theorem mem_blk3 (t : Fin cfg0.N) (i : S64x8x16384.Idx) :
    i ∈ ((cfg0.win 3).blk t).view.set ↔ ∀ a : Fin 3, win0_3.index t a * S1x8x16384.size a ≤ (i a).val ∧ (i a).val < win0_3.index t a * S1x8x16384.size a + S1x8x16384.size a := by
  show i ∈ ((View.whole main_v1).slice (win0_3.rect t)).set ↔ _
  rw [View.set_slice_whole, Rect.mem_set_unit]
  exact Iff.rfl

/-- Every index of the result array lies in the block its batch's last tile writes back. -/
theorem covered (i : S64x8x16384.Idx) : ∃ t : Fin cfg0.N, (cfg0.win 3).flush t = true ∧ i ∈ ((cfg0.win 3).blk t).view.set := by
  have hi0 : (i 0).val < 64 := (i 0).isLt
  have hi1 : (i 1).val < 8 := (i 1).isLt
  have hi2 : (i 2).val < 16384 := (i 2).isLt
  refine ⟨⟨4 * (i 0).val + 3, lt_of_lt_of_eq (by omega) N256.symm⟩, (flush0_3 _).mpr (by show (4 * (i 0).val + 3) % 4 = 3; omega), ?_⟩
  rw [mem_blk3]
  obtain ⟨e0, e1, e2⟩ := idx3 ⟨4 * (i 0).val + 3, lt_of_lt_of_eq (by omega) N256.symm⟩
  intro a
  match a with
  | ⟨0, _⟩ => show win0_3.index _ (0 : Fin 3) * 1 ≤ (i 0).val ∧ (i 0).val < win0_3.index _ (0 : Fin 3) * 1 + 1; rw [e0]; show (4 * (i 0).val + 3) / 4 * 1 ≤ (i 0).val ∧ (i 0).val < (4 * (i 0).val + 3) / 4 * 1 + 1; omega
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 16384 ≤ (i 2).val ∧ (i 2).val < win0_3.index _ (2 : Fin 3) * 16384 + 16384; rw [e2]; omega

/-- So the result array ends holding the specification. -/
theorem final (c : Dev nD) : (dats m 0 c).arrAt 3 cfg0.N = specAt m c :=
  (dats m 0 c).arrAt_eq_of_cover 3 (specAt m c) (flushed_eq m c) (covered)

/-- The run, read: the result array at the specification of the arguments, the arguments unchanged. -/
theorem run : θ_run defs (onTc (τ := τ) (main (F := Ideal))) ⟨m, fun _ => 0, ρ⟩ fun r => ∀ c : Dev nD,
      r.2.mem ((c.tc : Thread nD τ).loc main_v1) = specAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main (F := Ideal) m ρ)

end Cert.KernelIdeal.Body

end
-- ==== Proof.RefStages.lean ====
/-
  The reference program read one operation at a time: its result array, at the extended reals, is the
  specification's function of the three argument arrays, index by index.

  Each lemma reads one stage of the reference at explicit coordinates (batch b, head h, memory row j): the
  einsum is the score, the two norms the square roots of the sums of squares (the sums' initial value, the
  zero word, adds nothing), the softplus the specification's, the reduce-max a fold of max over the rows.
-/
import proofs.«154168_j18262200942963_2_alg».proof.Proof.Gen.ReferenceIdeal.Read
import proofs.«154168_j18262200942963_2_alg».proof.Proof.Spec
import Idealize.ShloMosaic.Lib.ValueIdx
import Idealize.ShloMosaic.Lib.Pipeline.Value
import Idealize.ShloMosaic.PureOps.Ideal.Laws

noncomputable section

namespace Cert.ReferenceIdeal.RefStages

open Cert.ReferenceIdeal Cert.ReferenceIdeal.Gen Cert.ReferenceIdeal.Read Idealize.ShloMosaic Idealize.ShloMosaic.ValueIdx Cert.Spec

variable (x0 : (⟨S64x16384x128, .f32⟩ : BufTy).Contents (Elt Ideal)) (x1 : (⟨S64x8x128, .f32⟩ : BufTy).Contents (Elt Ideal))
  (x2 : (⟨S64x8, .f32⟩ : BufTy).Contents (Elt Ideal))

/-- The einsum 'bhw,bmw->bhm' at (b, h, j): the dot product of key h with memory row j. -/
theorem v0_at (b : Fin 64) (h : Fin 8) (j : Fin 16384) : val_main_v0 (F := Ideal) x0 x1 (ix3 b h j) = score x0 x1 b h j := by
  rw [val_main_v0_apply]
  unfold score
  refine Finset.sum_congr rfl fun k _ => ?_
  rw [show lidx_main_v0 (ix3 b h j) k = ix3 b h k from funext fun a => Fin.ext (by match a with | ⟨0, _⟩ => rfl | ⟨1, _⟩ => rfl | ⟨2, _⟩ => rfl), show ridx_main_v0 (ix3 b h j) k = ix3 b j k from funext fun a => Fin.ext (by match a with | ⟨0, _⟩ => rfl | ⟨1, _⟩ => rfl | ⟨2, _⟩ => rfl)]

/-- The norm of memory row j: the square root of the sum of its squares. -/
theorem v1_at (b : Fin 64) (j : Fin 16384) : val_main_v1 (F := Ideal) x0 (ix2 b j) = Ideal.sqrt (sqMem x0 b j) := by
  rw [val_main_v1_apply, val_main_call0_v1_apply, val_main_call0_cst_apply]
  simp only [Ideal.hostUnary_sqrt_def, Ideal.ofBits_def, Ideal.ofBits_zero_f32, zero_add]
  unfold sqMem
  refine congrArg Ideal.sqrt (Finset.sum_congr rfl fun k _ => ?_)
  rw [val_main_call0_v0_apply, show idx_main_call0_v1 (ix2 b j) k = ix3 b j k from funext fun a => Fin.ext (by match a with | ⟨0, _⟩ => rfl | ⟨1, _⟩ => rfl | ⟨2, _⟩ => rfl)]
  rfl

/-- The norm of key h. -/
theorem v2_at (b : Fin 64) (h : Fin 8) : val_main_v2 (F := Ideal) x1 (ix2 b h) = Ideal.sqrt (sqKey x1 b h) := by
  rw [val_main_v2_apply, val_main_call1_v1_apply, val_main_call1_cst_apply]
  simp only [Ideal.hostUnary_sqrt_def, Ideal.ofBits_def, Ideal.ofBits_zero_f32, zero_add]
  unfold sqKey
  refine congrArg Ideal.sqrt (Finset.sum_congr rfl fun k _ => ?_)
  rw [val_main_call1_v0_apply, show idx_main_call1_v1 (ix2 b h) k = ix3 b h k from funext fun a => Fin.ext (by match a with | ⟨0, _⟩ => rfl | ⟨1, _⟩ => rfl | ⟨2, _⟩ => rfl)]
  rfl

/-- The denominator: the two norms multiplied, plus ε. -/
theorem v9_at (b : Fin 64) (h : Fin 8) (j : Fin 16384) :
    val_main_v9 (F := Ideal) x0 x1 (ix3 b h j) = Ideal.sqrt (sqMem x0 b j) * Ideal.sqrt (sqKey x1 b h) + eps := by
  rw [val_main_v9_apply, val_main_v7_apply, val_main_v5_apply, val_main_v3_apply, val_main_v6_apply, val_main_v4_apply,
    val_main_v8_apply, val_main_cst_apply]
  rw [show idx_main_v3 (idx_main_v5 (ix3 b h j)) = ix2 b j from funext fun a => Fin.ext (by match a with | ⟨0, _⟩ => rfl | ⟨1, _⟩ => rfl),
    show idx_main_v4 (idx_main_v6 (ix3 b h j)) = ix2 b h from funext fun a => Fin.ext (by match a with | ⟨0, _⟩ => rfl | ⟨1, _⟩ => rfl), v1_at, v2_at]
  rfl

/-- The softplus of a strength. -/
theorem v11_at (b : Fin 64) (h : Fin 8) : val_main_v11 (F := Ideal) x2 (ix2 b h) = softplus (x2 (ix2 b h)) := by
  rw [val_main_v11_apply, val_main_call2_v4_apply, val_main_call2_v6_apply, val_main_call2_v11_apply, val_main_call2_v1_apply,
    val_main_call2_v10_apply, val_main_call2_v9_apply, val_main_call2_v8_apply, val_main_call2_v7_apply, val_main_call2_v3_apply,
    val_main_call2_v0_apply, val_main_call2_v2_apply, val_main_call2_v5_apply, val_main_call2_cst_apply]
  rfl

/-- The weight: the score over the denominator, times the softplus of the head's strength. -/
theorem v14_at (b : Fin 64) (h : Fin 8) (j : Fin 16384) :
    val_main_v14 (F := Ideal) x0 x1 x2 (ix3 b h j) = weight x0 x1 x2 b h j := by
  rw [val_main_v14_apply, val_main_v10_apply, val_main_v13_apply, val_main_v12_apply]
  rw [show idx_main_v12 (idx_main_v13 (ix3 b h j)) = ix2 b h from funext fun a => Fin.ext (by match a with | ⟨0, _⟩ => rfl | ⟨1, _⟩ => rfl), v0_at, v9_at, v11_at]
  rfl

/-- The row maximum: the reduce-max over the rows, folded from -∞, and once more against -∞. -/
theorem v17_at (b : Fin 64) (h : Fin 8) : val_main_v17 (F := Ideal) x0 x1 x2 (ix2 b h) = rowMax x0 x1 x2 b h := by
  rw [val_main_v17_apply, val_main_v16_apply, val_main_cst_1_apply]
  unfold val_main_v15
  rw [Host.reduce_eq_fold_single (FloatOps.maximumf (F := Ideal) (φ := .f32)) _ _ reducesTo_S64x8x16384_S64x8_d2 (by decide) h_S_ (ix2 b h)]
  unfold rowMax
  refine congrArg (max ninf) ?_
  refine Finset.fold_congr fun k _ => ?_
  have hk : k.val < 16384 := k.isLt
  exact (congrArg (val_main_v14 (F := Ideal) x0 x1 x2) (show _ = ix3 b h (⟨k.val, hk⟩ : Fin 16384) from funext fun a => Fin.ext (by match a with | ⟨0, _⟩ => rfl | ⟨1, _⟩ => rfl | ⟨2, _⟩ => rfl))).trans
    (v14_at x0 x1 x2 b h ⟨k.val, hk⟩)

/-- The exponential of a weight less its row's maximum. -/
theorem v21_at (b : Fin 64) (h : Fin 8) (j : Fin 16384) :
    val_main_v21 (F := Ideal) x0 x1 x2 (ix3 b h j) = expW x0 x1 x2 b h j := by
  rw [val_main_v21_apply, val_main_v20_apply, val_main_v19_apply, val_main_v18_apply]
  rw [show idx_main_v18 (idx_main_v19 (ix3 b h j)) = ix2 b h from funext fun a => Fin.ext (by match a with | ⟨0, _⟩ => rfl | ⟨1, _⟩ => rfl), v14_at, v17_at]
  rfl

/-- The row's sum of exponentials (the sum's initial value, the zero word, adds nothing). -/
theorem v22_at (b : Fin 64) (h : Fin 8) : val_main_v22 (F := Ideal) x0 x1 x2 (ix2 b h) = ∑ j : Fin 16384, expW x0 x1 x2 b h j := by
  rw [val_main_v22_apply, val_main_cst_2_apply]
  simp only [Ideal.ofBits_def, Ideal.ofBits_zero_f32, zero_add]
  refine Finset.sum_congr rfl fun k _ => ?_
  rw [show idx_main_v22 (ix2 b h) k = ix3 b h k from funext fun a => Fin.ext (by match a with | ⟨0, _⟩ => rfl | ⟨1, _⟩ => rfl | ⟨2, _⟩ => rfl), v21_at]

/-- The reference's result is the specification's. -/
theorem result_eq : val_main_v25 (F := Ideal) x0 x1 x2 = result x0 x1 x2 := by
  funext i
  obtain ⟨b, h, j, rfl⟩ : ∃ (b : Fin 64) (h : Fin 8) (j : Fin 16384), i = ix3 b h j := ⟨i 0, i 1, i 2, eq_ix3 i⟩
  rw [val_main_v25_apply, val_main_v24_apply, val_main_v23_apply]
  rw [show idx_main_v23 (idx_main_v24 (ix3 b h j)) = ix2 b h from funext fun a => Fin.ext (by match a with | ⟨0, _⟩ => rfl | ⟨1, _⟩ => rfl), v21_at, v22_at]
  rfl

end Cert.ReferenceIdeal.RefStages

end
-- ==== Proof.lean ====
/-
  The certificate's claim, assembled.

  The kernel streams each batch's memory through four tiles, keeping the tile's scores (keys against memory rows)
  and squared row norms in two scratch buffers, and at the batch's last tile turns the whole rows into softmax
  weights; the reference computes the same weights with one einsum, two norms and a softmax. Over the extended
  reals both are the specification's function of the three argument arrays (Proof/Spec.lean): the kernel's side is
  Proof/IdealValue.lean over the frame run of Proof/IdealData.lean, the reference's Proof/RefStages.lean over its
  generated run. The word-level kernel's frame is the same frame run at the word-level values (Proof/BitsData.lean).
  The idealization rewrote no operation, so there is nothing to preserve.
-/
import proofs.«154168_j18262200942963_2_alg».proof.Defs
import proofs.«154168_j18262200942963_2_alg».proof.Proof.Gen.Kernel
import proofs.«154168_j18262200942963_2_alg».proof.Proof.Gen.KernelIdeal
import proofs.«154168_j18262200942963_2_alg».proof.Proof.Gen.ReferenceIdeal
import proofs.«154168_j18262200942963_2_alg».proof.Proof.Gen.Pre_finite_inputs
import proofs.«154168_j18262200942963_2_alg».proof.Proof.Gen.ReferenceIdeal.Run
import proofs.«154168_j18262200942963_2_alg».proof.Proof.Gen.ReferenceIdeal.Read
import proofs.«154168_j18262200942963_2_alg».proof.Proof.BitsData
import proofs.«154168_j18262200942963_2_alg».proof.Proof.IdealValue
import proofs.«154168_j18262200942963_2_alg».proof.Proof.RefStages
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame (F := Bits) m ρ

/-- So does the kernel read at the extended reals. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at the specification of those arguments. -/
theorem algebraic : Cert.algebraic_KernelIdeal_ReferenceIdeal := by
  intro m ρ m' ρ' _ hagree
  refine ⟨fun c => Cert.KernelIdeal.Body.specAt m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefStages.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
